-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S80x128 : Shape := ⟨2, ![80, 128]⟩
abbrev S5000x128 : Shape := ⟨2, ![5000, 128]⟩
abbrev S8x128 : Shape := ⟨2, ![8, 128]⟩

abbrev nBuf : Space → Nat
  | .hbm => 64
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S128x128, .f32⟩
  | .hbm, ⟨26, _⟩ => ⟨S128x128, .bf16⟩
  | .hbm, ⟨27, _⟩ => ⟨S128x128, .f32⟩
  | .hbm, ⟨28, _⟩ => ⟨S128x128, .bf16⟩
  | .hbm, ⟨29, _⟩ => ⟨S1x128, .f32⟩
  | .hbm, ⟨30, _⟩ => ⟨S1x128, .f32⟩
  | .hbm, ⟨31, _⟩ => ⟨S50000x128, .f32⟩
  | .hbm, ⟨32, _⟩ => ⟨S80x128, .f32⟩
  | .hbm, ⟨33, _⟩ => ⟨S80x128, .f32⟩
  | .hbm, ⟨34, _⟩ => ⟨S_, .f32⟩
  | .hbm, ⟨35, _⟩ => ⟨S128, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_cst_1 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  broadcasts_S1x128_S8x128 : S1x128.Broadcasts S8x128
  inb_S8x128_S8x128_0_0 : ∀ a, (![0, 0] : Fin 2 → Nat) a + S8x128.size a ≤ S8x128.size a
  h_S8x128 : 0 < S8x128.numel
  reducesTo_S80x128_S128_d0 : S80x128.ReducesTo [0] S128
  h_S_ : 0 < S_.numel
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S80x128.size a
  hwx0_7 : ∀ i : grid0.Coords, EltTy.bits .f32 = 32 ∨ (Rect.block (s := S80x128) S8x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S80x128.size a
  hwx0_8 : ∀ i : grid0.Coords, EltTy.bits .f32 = 32 ∨ (Rect.block (s := S80x128) S8x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v20_1) S8x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v20_2) S8x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v20_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000x128, .f32⟩
  | .hbm, ⟨36, _⟩ => ⟨S50000x128, .f32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_1_0_0_n_n_wf : DotDims.WF S50000x128 S128x128 S50000x128 [1] [1] [0] [0] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_1_0_0_n_n : DotDims S50000x128 S128x128 S50000x128 where
  lhsContracting := [1]
  rhsContracting := [1]
  lhsNonContracting := [0]
  rhsNonContracting := [0]
  lhsBatch := []
  rhsBatch := []
  wf := dot_S50000x128_S128x128_S50000x128_1_1_0_0_n_n_wf

class Facts : Prop extends Facts₀ where

variable [Facts]
-- ==== Proof.KRun.lean ====
/-
  The kernel program's run with its result named.

  The program is two kernel launches among three stretches of host operations. Every weakly fair execution terminates
  without a fault; at the end the result buffer holds what the second launch's write-backs leave in it, and the eight
  argument buffers are as launched. The buffer contents at each boundary are the fold `W0 … W4` of the frame module;
  this theorem reads the final state at the result buffer as well as at the arguments.
-/
import proofs.«124991_j24120536334768_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the arguments end as launched. -/
theorem run_named : θ_run defs (onTc (τ := τ) (main (F := F))) ⟨m, fun _ => 0, ρ⟩ (fun r => ∀ c : Dev nD,
      r.2.mem ((c.tc : Thread nD τ).loc main_v42) = W4 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v42 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunV

end
-- ==== Proof.Spec.lean ====
/-
  The mathematics of the layer, stated once over the extended reals and independent of either program.

  A node's hidden activation is the rectified sum of two linear maps, one of the aggregated neighbour features and one of
  the node's own features, each with its bias: `hidden`. The layer then normalises every feature column over all 50000
  nodes: it subtracts the column mean, divides by the square root of the (biased) column variance plus a small constant,
  scales by `gamma` and shifts by `beta`.

  Two arrangements of the column statistics are written down. `outTwoPass` takes the mean first and then the mean of the
  squared deviations. `outTiled` takes, per tile of 5000 consecutive nodes, the column sum and the column sum of squares,
  keeps each tile's pair in eight identical rows, adds the 80 rows and divides by eight, and forms the variance as the mean
  square minus the squared mean, clipped below at zero. On real (finite) activations the two agree; that is proved in the
  statistics module, not here.
-/
import Idealize.ShloMosaic.PureOps.Ideal
import Idealize.ShloMosaic.Lib.ValueIdx

noncomputable section

namespace Cert.Sage

open Idealize.ShloMosaic Idealize.ShloMosaic.ValueIdx
open scoped BigOperators

/-- A rank-2 array of extended reals. -/
abbrev Arr2 (a b : Nat) : Type := (⟨2, ![a, b]⟩ : Shape).Idx → EReal
/-- A rank-1 array of extended reals. -/
abbrev Arr1 (a : Nat) : Type := (⟨1, ![a]⟩ : Shape).Idx → EReal

/-- The number of nodes, 50000, as the float constant both programs divide by. -/
def cnt : EReal := Ideal.ofBits .f32 0x47435000#32
/-- The constant 8 that undoes the eightfold replication of a tile's partial sums. -/
def eight : EReal := Ideal.ofBits .f32 0x41000000#32
/-- The small constant added to the variance. -/
def eps : EReal := Ideal.ofBits .f32 0x3727C5AC#32

/-- The hidden activation of node `n` at output feature `o`: `max (((agg·Wlᵀ + bl) + x·Wrᵀ) + br) 0`. -/
def hidden (agg x : Arr2 50000 128) (wl : Arr2 128 128) (bl : Arr1 128) (wr : Arr2 128 128) (br : Arr1 128)
    (n : Fin 50000) (o : Fin 128) : EReal :=
  max ((((∑ k : Fin 128, agg (ix2 n k) * wl (ix2 o k)) + bl (ix1 o)) + ∑ k : Fin 128, x (ix2 n k) * wr (ix2 o k)) + br (ix1 o)) 0

/-! ### Mean first, then the mean squared deviation -/

/-- The column mean: the sum over all nodes (from zero) divided by the node count. -/
def mean (h : Fin 50000 → Fin 128 → EReal) (o : Fin 128) : EReal :=
  Ideal.div (0 + ∑ n : Fin 50000, h n o) cnt

/-- The biased column variance: the mean of the squared deviations from the column mean. -/
def var (h : Fin 50000 → Fin 128 → EReal) (o : Fin 128) : EReal :=
  Ideal.div (0 + ∑ n : Fin 50000, (h n o - mean h o) * (h n o - mean h o)) cnt

/-- The normalised output with the statistics taken in two passes. -/
def outTwoPass (h : Fin 50000 → Fin 128 → EReal) (gamma beta : Arr1 128) (n : Fin 50000) (o : Fin 128) : EReal :=
  gamma (ix1 o) * (h n o - mean h o) * Ideal.rsqrt (var h o + eps) + beta (ix1 o)

/-! ### Per-tile partial sums, replicated eightfold -/

/-- Node `j` of tile `t`: tiles are 5000 consecutive nodes. -/
def tileRow (t : Fin 10) (j : Fin 5000) : Fin 50000 := ⟨5000 * t.val + j.val, by have := t.isLt; have := j.isLt; omega⟩

/-- Row `r` of the 80-row table of partial sums of a column `f`: the sum of `f` over tile `r / 8`. -/
def part (f : Fin 50000 → EReal) (r : Fin 80) : EReal :=
  ∑ j : Fin 5000, f (tileRow ⟨r.val / 8, by have := r.isLt; omega⟩ j)

/-- The column mean from the table: the 80 rows added (from zero), divided by eight, divided by the node count. -/
def meanTiled (h : Fin 50000 → Fin 128 → EReal) (o : Fin 128) : EReal :=
  Ideal.div (Ideal.div (0 + ∑ r : Fin 80, part (fun n => h n o) r) eight) cnt

/-- The column mean square from the table of partial sums of squares. -/
def meanSqTiled (h : Fin 50000 → Fin 128 → EReal) (o : Fin 128) : EReal :=
  Ideal.div (Ideal.div (0 + ∑ r : Fin 80, part (fun n => h n o * h n o) r) eight) cnt

/-- One over the square root of (mean square minus squared mean, clipped at zero, plus the small constant). -/
def invStdTiled (h : Fin 50000 → Fin 128 → EReal) (o : Fin 128) : EReal :=
  Ideal.rsqrt (max (meanSqTiled h o - meanTiled h o * meanTiled h o) 0 + eps)

/-- The normalised output with the statistics taken from the per-tile table. -/
def outTiled (h : Fin 50000 → Fin 128 → EReal) (gamma beta : Arr1 128) (n : Fin 50000) (o : Fin 128) : EReal :=
  gamma (ix1 o) * (h n o - meanTiled h o) * invStdTiled h o + beta (ix1 o)

end Cert.Sage

end
-- ==== Proof.LibPlainMatmul.lean ====
/-
  A plain matrix product read at an index, over the extended reals.

  For dimension numbers that contract the left operand's axis 1 with the right operand's axis 0, keep the left
  operand's axis 0 and the right operand's axis 1, and have no batch axes, entry `(p, q)` of the product accumulated
  into the zero matrix is `∑ₖ lhs (p, k) * rhs (k, q)`: the contraction index, a one-axis multi-index, is its one
  coordinate, and the operand indices at `(p, q)` and `k` are `(p, k)` and `(k, q)`.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand's row coordinate is the result's row coordinate. -/
theorem lhsIdx_row (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

include hrn hrb hln hlb in
/-- The right operand's column coordinate is the result's column coordinate. -/
theorem rhsIdx_col (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

include hlc in
theorem contr_rank : d.contr.rank = 1 := by rw [d.rank_contr, hlc]; rfl

include hlc in
theorem contr_size (h0 : 0 < d.contr.rank) : d.contr.size ⟨0, h0⟩ = K := by
  have h1 : 0 < d.lhsContracting.length := by rw [hlc]; exact Nat.one_pos
  have e := d.size_contr 0 h1
  refine e.trans ?_
  have : d.lhsContracting[0] = (1 : Fin (⟨2, ![M, K]⟩ : Shape).rank) := by simp [hlc]
  rw [this]
  rfl

include hlc hrc hln hrn hlb hrb in
/-- ENTRY `(p, q)` OF A PLAIN PRODUCT INTO THE ZERO MATRIX: `∑ₖ lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hl : d.lhsIdx (ix2 p q) ((contrEquiv1 d K hr hs).symm k) = ix2 p k := by
    funext a
    apply Fin.ext
    match a with
    | ⟨0, _⟩ => exact lhsIdx_row d hln hlb (ix2 p q) _
    | ⟨1, _⟩ =>
      exact (d.lhsIdx_val_of_single (cl := 1) hlc (ix2 p q) _).trans (contrEquiv1_symm_val d K hr hs k)
  have hr' : d.rhsIdx (ix2 p q) ((contrEquiv1 d K hr hs).symm k) = ix2 k q := by
    funext a
    apply Fin.ext
    match a with
    | ⟨0, _⟩ =>
      exact (d.rhsIdx_val_of_single (cr := 0) hrc (ix2 p q) _).trans (contrEquiv1_symm_val d K hr hs k)
    | ⟨1, _⟩ => exact rhsIdx_col d hln hrn hlb hrb (ix2 p q) _
  rw [hl, hr']

end Idealize.ShloMosaic.PlainMatmul
-- ==== Proof.KStage1.lean ====
/-
  The first launch, read as values at the extended reals.

  At grid point `t` the body loads tile `t` (rows `5000·t … 5000·t + 4999`) of the aggregated features and of the node
  features, the two whole transposed weight matrices and the two whole bias rows. It stores the tile of hidden
  activations `max (((agg·A + bl) + x·B) + br) 0`, and, in all eight rows of block `t` of two `[80, 128]` tables, the
  column sums over the tile of the activations and of their squares. The blocks tile the three output arrays, so after
  the launch each array is one function of the arrays the launch found.
-/
import proofs.«124991_j24120536334768_2_alg».proof.Proof.Gen.KernelIdeal.Frame
import proofs.«124991_j24120536334768_2_alg».proof.Proof.Spec
import proofs.«124991_j24120536334768_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stage1

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The column coordinate of an index of a `[rows, 128]` array, as a number below 128. -/
abbrev col {n : Nat} (i : (⟨2, ![n, 128]⟩ : Shape).Idx) : Fin 128 := ⟨(i 1).val, idx2_lt1 i⟩
/-- The row coordinate of an index of a `[n, 128]` array, as a number below `n`. -/
abbrev row {n : Nat} (i : (⟨2, ![n, 128]⟩ : Shape).Idx) : Fin n := ⟨(i 0).val, idx2_lt0 i⟩

/-- The hidden activation at node `n`, feature `o`, over the arrays as the launch stages them: the weight matrices
    already transposed (`[in, out]`), the biases as `[1, 128]` rows. -/
def act (agg x : S50000x128.Idx → EReal) (A B : S128x128.Idx → EReal) (bl br : S1x128.Idx → EReal)
    (n : Fin 50000) (o : Fin 128) : EReal :=
  max ((((∑ k : Fin 128, agg (ix2 n k) * A (ix2 k o)) + bl (ix2 (0 : Fin 1) o)) + ∑ k : Fin 128, x (ix2 n k) * B (ix2 k o))
    + br (ix2 (0 : Fin 1) o)) 0

/-- The activations array after the launch. -/
def GAct (agg x : S50000x128.Idx → EReal) (A B : S128x128.Idx → EReal) (bl br : S1x128.Idx → EReal) : S50000x128.Idx → EReal :=
  fun i => act agg x A B bl br (row i) (col i)
/-- The table of per-tile column sums after the launch: row `r` holds tile `r / 8`'s sums. -/
def GSum (agg x : S50000x128.Idx → EReal) (A B : S128x128.Idx → EReal) (bl br : S1x128.Idx → EReal) : S80x128.Idx → EReal :=
  fun i => Cert.Sage.part (fun n => act agg x A B bl br n (col i)) (row i)
/-- The table of per-tile column sums of squares after the launch. -/
def GSq (agg x : S50000x128.Idx → EReal) (A B : S128x128.Idx → EReal) (bl br : S1x128.Idx → EReal) : S80x128.Idx → EReal :=
  fun i => Cert.Sage.part (fun n => act agg x A B bl br n (col i) * act agg x A B bl br n (col i)) (row i)

/-! ## The body's stored values at an index of their blocks -/

/-- The activations' tile at row `p`, column `q`. -/
theorem pay1_apply (agg x : FVec Ideal S5000x128 .f32) (A B : FVec Ideal S128x128 .bf16) (bl br : FVec Ideal S1x128 .f32)
    (p : Fin 5000) (q : Fin 128) :
    k0_pay1 (F := Ideal) agg x A B bl br (ix2 p q)
      = max ((((∑ k : Fin 128, agg (ix2 p k) * A (ix2 k q)) + bl (ix2 (0 : Fin 1) q)) + ∑ k : Fin 128, x (ix2 p k) * B (ix2 k q))
          + br (ix2 (0 : Fin 1) q)) 0 := by
  unfold k0_pay1
  simp only [maximumf_apply, addf_apply, broadcast_apply, broadcastTo_1b_ab_apply, shapeCast_self]
  rw [show Scalar.ofBits (F := Ideal) .f32 0x00000000#32 = 0 from Ideal.ofBits_zero_f32]
  have hm1 : matmul dot_S5000x128_S128x128_S5000x128_1_0_0_1_n_n none (truncf .bf16 agg bitsLt_bf16_f32) A
      (constant S5000x128 .f32 0x00000000#32) (ix2 p q) = ∑ k : Fin 128, agg (ix2 p k) * A (ix2 k q) :=
    (PlainMatmul.matmul_zero_apply dot_S5000x128_S128x128_S5000x128_1_0_0_1_n_n rfl rfl rfl rfl rfl rfl none
      (truncf .bf16 agg bitsLt_bf16_f32) A p q).trans (Finset.sum_congr rfl fun k _ => rfl)
  have hm2 : matmul dot_S5000x128_S128x128_S5000x128_1_0_0_1_n_n none (truncf .bf16 x bitsLt_bf16_f32) B
      (constant S5000x128 .f32 0x00000000#32) (ix2 p q) = ∑ k : Fin 128, x (ix2 p k) * B (ix2 k q) :=
    (PlainMatmul.matmul_zero_apply dot_S5000x128_S128x128_S5000x128_1_0_0_1_n_n rfl rfl rfl rfl rfl rfl none
      (truncf .bf16 x bitsLt_bf16_f32) B p q).trans (Finset.sum_congr rfl fun k _ => rfl)
  rw [hm1, hm2]

/-- A column sum of a `[5000, 128]` tile read at column `q`. -/
theorem colsum_apply (src : FVec Ideal S5000x128 .f32) (q : Fin 128) :
    multiReduction .add [0] S128 src 0x00000000#32 reduces_S5000x128_S128 (.inl rfl) rfl (ix1 q) = ∑ j : Fin 5000, src (ix2 j q) := by
  refine (Ideal.multiReduction_add_single src 0x00000000#32 reduces_S5000x128_S128 (.inl rfl) rfl (ix1 q)).trans ?_
  show ∑ j : Fin 5000, src (reduces_S5000x128_S128.lift (ix1 q) j) = _
  refine Finset.sum_congr rfl fun j _ => congrArg src (funext fun d => Fin.ext ?_)
  match d with
  | ⟨0, _⟩ => rfl
  | ⟨1, _⟩ => rfl

/-- The sums' block: every one of its eight rows holds the tile's column sums. -/
theorem pay2_apply (agg x : FVec Ideal S5000x128 .f32) (A B : FVec Ideal S128x128 .bf16) (bl br : FVec Ideal S1x128 .f32)
    (u : Fin 8) (q : Fin 128) :
    k0_pay2 (F := Ideal) agg x A B bl br (ix2 u q) = ∑ j : Fin 5000, k0_pay1 (F := Ideal) agg x A B bl br (ix2 j q) := by
  unfold k0_pay2
  simp only [shapeCast_self]
  rw [broadcastTo_1b_ab_apply, shapeCast_a_1a_apply]
  exact colsum_apply _ q

/-- The squares' block: every one of its eight rows holds the tile's column sums of squares. -/
theorem pay3_apply (agg x : FVec Ideal S5000x128 .f32) (A B : FVec Ideal S128x128 .bf16) (bl br : FVec Ideal S1x128 .f32)
    (u : Fin 8) (q : Fin 128) :
    k0_pay3 (F := Ideal) agg x A B bl br (ix2 u q)
      = ∑ j : Fin 5000, k0_pay1 (F := Ideal) agg x A B bl br (ix2 j q) * k0_pay1 (F := Ideal) agg x A B bl br (ix2 j q) := by
  unfold k0_pay3
  simp only [shapeCast_self]
  rw [broadcastTo_1b_ab_apply, shapeCast_a_1a_apply]
  refine (colsum_apply _ q).trans ?_
  rfl

/-! ## The blocks read where they sit in the arrays -/

theorem hz : (![0, 0] : Fin 2 → Nat) = fun _ => 0 := funext fun a => by fin_cases a <;> rfl

/-- The printed index maps over the ten grid points: the two tiled inputs and the three outputs are block `t` along the
    rows and block 0 along the columns; the weights and biases are always block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- A grid point as a tile number below ten. -/
def tile (t : Fin cfg0.N) : Fin 10 := ⟨t.val, by have h := t.isLt; have hN : cfg0.N = 10 := N_0; omega⟩

variable (V : (c : Dev nD) → (b : Ref sig .tc) → Buf (Elt Ideal) ((c : Thread nD τ).loc b))

/-- Row `p` of tile `t` of a tiled input is row `5000·t + p` of its array. -/
theorem tile_read (c : Dev nD) (t : Fin cfg0.N) (p : Fin 5000) (k : Fin 128) :
    iblk0 V c 0 t (ix2 p k) = V c main_arg0 (ix2 (Cert.Sage.tileRow (tile t) p) k)
    ∧ iblk0 V c 1 t (ix2 p k) = V c main_v13 (ix2 (Cert.Sage.tileRow (tile t) p) k) := by
  obtain ⟨⟨a0, a1⟩, ⟨b0, b1⟩, -⟩ := idx_facts t
  refine ⟨?_, ?_⟩
  · show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = 5000 * t.val + p.val; omega
    | ⟨1, _⟩ => show win0_0.index t (1 : Fin 2) * 128 + 1 * k.val = k.val; omega
  · show V c main_v13 (((cfg0.win 1).blk t).view.emb (ix2 p k)) = _
    refine congrArg (V c main_v13) (funext fun a => Fin.ext ?_)
    match a with
    | ⟨0, _⟩ => show win0_1.index t (0 : Fin 2) * 5000 + 1 * p.val = 5000 * t.val + p.val; omega
    | ⟨1, _⟩ => show win0_1.index t (1 : Fin 2) * 128 + 1 * k.val = k.val; omega

/-- A weight window's block at any point is the whole matrix. -/
theorem weight_read (c : Dev nD) (t : Fin cfg0.N) (k q : Fin 128) :
    iblk0 V c 2 t (ix2 k q) = V c main_v15 (ix2 k q) ∧ iblk0 V c 4 t (ix2 k q) = V c main_v17 (ix2 k q) := by
  obtain ⟨-, -, ⟨a0, a1⟩, -, ⟨b0, b1⟩, -⟩ := idx_facts t
  refine ⟨?_, ?_⟩
  · show V c main_v15 (((cfg0.win 2).blk t).view.emb (ix2 k q)) = _
    refine congrArg (V c main_v15) (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  · show V c main_v17 (((cfg0.win 4).blk t).view.emb (ix2 k q)) = _
    refine congrArg (V c main_v17) (funext fun a => Fin.ext ?_)
    match a with
    | ⟨0, _⟩ => show win0_4.index t (0 : Fin 2) * 128 + 1 * k.val = k.val; omega
    | ⟨1, _⟩ => show win0_4.index t (1 : Fin 2) * 128 + 1 * q.val = q.val; omega

/-- A bias window's block at any point is the whole row. -/
theorem bias_read (c : Dev nD) (t : Fin cfg0.N) (q : Fin 128) :
    iblk0 V c 3 t (ix2 (0 : Fin 1) q) = V c main_v18 (ix2 (0 : Fin 1) q)
    ∧ iblk0 V c 5 t (ix2 (0 : Fin 1) q) = V c main_v19 (ix2 (0 : Fin 1) q) := by
  obtain ⟨-, -, -, ⟨a0, a1⟩, -, ⟨b0, b1⟩, -⟩ := idx_facts t
  refine ⟨?_, ?_⟩
  · show V c main_v18 (((cfg0.win 3).blk t).view.emb (ix2 (0 : Fin 1) q)) = _
    refine congrArg (V c main_v18) (funext fun a => Fin.ext ?_)
    match a with
    | ⟨0, _⟩ => show win0_3.index t (0 : Fin 2) * 1 + 1 * 0 = 0; omega
    | ⟨1, _⟩ => show win0_3.index t (1 : Fin 2) * 128 + 1 * q.val = q.val; omega
  · show V c main_v19 (((cfg0.win 5).blk t).view.emb (ix2 (0 : Fin 1) q)) = _
    refine congrArg (V c main_v19) (funext fun a => Fin.ext ?_)
    match a with
    | ⟨0, _⟩ => show win0_5.index t (0 : Fin 2) * 1 + 1 * 0 = 0; omega
    | ⟨1, _⟩ => show win0_5.index t (1 : Fin 2) * 128 + 1 * q.val = q.val; omega

/-- THE TILE'S ACTIVATION at row `p`, column `q` is the activation of node `5000·t + p` over the whole arrays. -/
theorem pay1_block (c : Dev nD) (t : Fin cfg0.N) (p : Fin 5000) (q : Fin 128) :
    k0_pay1 (F := Ideal) (iblk0 V c 1 t) (iblk0 V c 0 t) (iblk0 V c 2 t) (iblk0 V c 4 t) (iblk0 V c 3 t) (iblk0 V c 5 t) (ix2 p q)
      = act (V c main_v13) (V c main_arg0) (V c main_v15) (V c main_v17) (V c main_v18) (V c main_v19)
          (Cert.Sage.tileRow (tile t) p) q := by
  refine (pay1_apply (iblk0 V c 1 t) (iblk0 V c 0 t) (iblk0 V c 2 t) (iblk0 V c 4 t) (iblk0 V c 3 t) (iblk0 V c 5 t) p q).trans ?_
  unfold act
  rw [(bias_read V c t q).1, (bias_read V c t q).2]
  refine congrArg (fun z : EReal => max z 0) ?_
  refine congrArg₂ (fun a b : EReal => a + b) (congrArg₂ (fun a b : EReal => a + b) (congrArg₂ (fun a b : EReal => a + b) ?_ rfl) ?_) rfl
  · exact Finset.sum_congr rfl fun k _ => by rw [(tile_read V c t p k).2, (weight_read V c t k q).1]
  · exact Finset.sum_congr rfl fun k _ => by rw [(tile_read V c t p k).1, (weight_read V c t k q).2]

/-! ## What each point writes back -/

/-- Point `t` writes back block `t` of the activations array. -/
theorem flushed6_eq (c : Dev nD) (t : Fin cfg0.N) :
    (dat0 V c).flushed 6 t = ((cfg0.win 6).blk t).view.read (Elt Ideal)
      (GAct (V c main_v13) (V c main_arg0) (V c main_v15) (V c main_v17) (V c main_v18) (V c main_v19)) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, ⟨a0, a1⟩, -⟩ := idx_facts t
  show k0_pay1 (F := Ideal) (iblk0 V c 1 t) (iblk0 V c 0 t) (iblk0 V c 2 t) (iblk0 V c 4 t) (iblk0 V c 3 t) (iblk0 V c 5 t) (ix2 p q)
    = GAct (V c main_v13) (V c main_arg0) (V c main_v15) (V c main_v17) (V c main_v18) (V c main_v19)
        (((cfg0.win 6).blk t).view.emb (ix2 p q))
  refine (pay1_block V c t p q).trans ?_
  unfold GAct
  have hr : row (((cfg0.win 6).blk t).view.emb (ix2 p q)) = Cert.Sage.tileRow (tile t) p := by
    refine Fin.ext ?_
    show win0_6.index t (0 : Fin 2) * 5000 + 1 * p.val = 5000 * t.val + p.val
    omega
  have hc : col (((cfg0.win 6).blk t).view.emb (ix2 p q)) = q := by
    refine Fin.ext ?_
    show win0_6.index t (1 : Fin 2) * 128 + 1 * q.val = q.val
    omega
  rw [hr, hc]

/-- Point `t` writes back block `t` of the table of sums. -/
theorem flushed7_eq (c : Dev nD) (t : Fin cfg0.N) :
    (dat0 V c).flushed 7 t = ((cfg0.win 7).blk t).view.read (Elt Ideal)
      (GSum (V c main_v13) (V c main_arg0) (V c main_v15) (V c main_v17) (V c main_v18) (V c main_v19)) := by
  show (cfg0.win 7).cut (grid0.coords t) ((dat0 V c).after 7 t) = _
  rw [after0_7]
  unfold out0_7
  rw [View.canon_unit_zero hz]
  simp only [View.ld_unit_zero (S := S5000x128) hz, View.ld_unit_zero (S := S128x128) hz, View.ld_unit_zero (S := S1x128) hz]
  funext j
  obtain ⟨u, q, rfl⟩ : ∃ (u : Fin 8) (q : Fin 128), j = ix2 u q := ⟨j 0, j 1, eq_ix2 j⟩
  obtain ⟨-, -, -, -, -, -, -, ⟨a0, a1⟩, -⟩ := idx_facts t
  show k0_pay2 (F := Ideal) (iblk0 V c 1 t) (iblk0 V c 0 t) (iblk0 V c 2 t) (iblk0 V c 4 t) (iblk0 V c 3 t) (iblk0 V c 5 t) (ix2 u q)
    = GSum (V c main_v13) (V c main_arg0) (V c main_v15) (V c main_v17) (V c main_v18) (V c main_v19)
        (((cfg0.win 7).blk t).view.emb (ix2 u q))
  refine (pay2_apply (iblk0 V c 1 t) (iblk0 V c 0 t) (iblk0 V c 2 t) (iblk0 V c 4 t) (iblk0 V c 3 t) (iblk0 V c 5 t) u q).trans ?_
  unfold GSum Cert.Sage.part
  have hc : col (((cfg0.win 7).blk t).view.emb (ix2 u q)) = q := by
    refine Fin.ext ?_
    show win0_7.index t (1 : Fin 2) * 128 + 1 * q.val = q.val
    omega
  have hr : (row (((cfg0.win 7).blk t).view.emb (ix2 u q))).val = 8 * t.val + u.val := by
    show win0_7.index t (0 : Fin 2) * 8 + 1 * u.val = 8 * t.val + u.val
    omega
  rw [hc]
  refine Finset.sum_congr rfl fun j _ => ?_
  refine (pay1_block V c t j q).trans ?_
  refine congrArg (fun n => act (V c main_v13) (V c main_arg0) (V c main_v15) (V c main_v17) (V c main_v18) (V c main_v19) n q) ?_
  refine Fin.ext ?_
  show 5000 * t.val + j.val = 5000 * ((row (((cfg0.win 7).blk t).view.emb (ix2 u q))).val / 8) + j.val
  rw [hr]
  have hu : u.val < 8 := u.isLt
  omega

/-- Point `t` writes back block `t` of the table of sums of squares. -/
theorem flushed8_eq (c : Dev nD) (t : Fin cfg0.N) :
    (dat0 V c).flushed 8 t = ((cfg0.win 8).blk t).view.read (Elt Ideal)
      (GSq (V c main_v13) (V c main_arg0) (V c main_v15) (V c main_v17) (V c main_v18) (V c main_v19)) := by
  show (cfg0.win 8).cut (grid0.coords t) ((dat0 V c).after 8 t) = _
  rw [after0_8]
  unfold out0_8
  rw [View.canon_unit_zero hz]
  simp only [View.ld_unit_zero (S := S5000x128) hz, View.ld_unit_zero (S := S128x128) hz, View.ld_unit_zero (S := S1x128) hz]
  funext j
  obtain ⟨u, q, rfl⟩ : ∃ (u : Fin 8) (q : Fin 128), j = ix2 u q := ⟨j 0, j 1, eq_ix2 j⟩
  obtain ⟨-, -, -, -, -, -, -, -, ⟨a0, a1⟩⟩ := idx_facts t
  show k0_pay3 (F := Ideal) (iblk0 V c 1 t) (iblk0 V c 0 t) (iblk0 V c 2 t) (iblk0 V c 4 t) (iblk0 V c 3 t) (iblk0 V c 5 t) (ix2 u q)
    = GSq (V c main_v13) (V c main_arg0) (V c main_v15) (V c main_v17) (V c main_v18) (V c main_v19)
        (((cfg0.win 8).blk t).view.emb (ix2 u q))
  refine (pay3_apply (iblk0 V c 1 t) (iblk0 V c 0 t) (iblk0 V c 2 t) (iblk0 V c 4 t) (iblk0 V c 3 t) (iblk0 V c 5 t) u q).trans ?_
  unfold GSq Cert.Sage.part
  have hc : col (((cfg0.win 8).blk t).view.emb (ix2 u q)) = q := by
    refine Fin.ext ?_
    show win0_8.index t (1 : Fin 2) * 128 + 1 * q.val = q.val
    omega
  have hr : (row (((cfg0.win 8).blk t).view.emb (ix2 u q))).val = 8 * t.val + u.val := by
    show win0_8.index t (0 : Fin 2) * 8 + 1 * u.val = 8 * t.val + u.val
    omega
  rw [hc]
  refine Finset.sum_congr rfl fun j _ => ?_
  have hn : Cert.Sage.tileRow (tile t) j
      = Cert.Sage.tileRow ⟨(row (((cfg0.win 8).blk t).view.emb (ix2 u q))).val / 8, by
          have := (row (((cfg0.win 8).blk t).view.emb (ix2 u q))).isLt; omega⟩ j := by
    refine Fin.ext ?_
    show 5000 * t.val + j.val = 5000 * ((row (((cfg0.win 8).blk t).view.emb (ix2 u q))).val / 8) + j.val
    rw [hr]
    have hu : u.val < 8 := u.isLt
    omega
  rw [pay1_block V c t j q, hn]

/-! ## The blocks tile the arrays -/

theorem mem_blk6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v20_0).slice (win0_6.rect t)).set ↔ _
  rw [View.set_slice_whole, Rect.mem_set_unit]
  exact Iff.rfl

theorem mem_blk7 (t : Fin cfg0.N) (i : S80x128.Idx) :
    i ∈ ((cfg0.win 7).blk t).view.set ↔ ∀ a : Fin 2, win0_7.index t a * S8x128.size a ≤ (i a).val ∧ (i a).val < win0_7.index t a * S8x128.size a + S8x128.size a := by
  show i ∈ ((View.whole main_v20_1).slice (win0_7.rect t)).set ↔ _
  rw [View.set_slice_whole, Rect.mem_set_unit]
  exact Iff.rfl

theorem mem_blk8 (t : Fin cfg0.N) (i : S80x128.Idx) :
    i ∈ ((cfg0.win 8).blk t).view.set ↔ ∀ a : Fin 2, win0_8.index t a * S8x128.size a ≤ (i a).val ∧ (i a).val < win0_8.index t a * S8x128.size a + S8x128.size a := by
  show i ∈ ((View.whole main_v20_2).slice (win0_8.rect t)).set ↔ _
  rw [View.set_slice_whole, Rect.mem_set_unit]
  exact Iff.rfl

theorem cover6 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, ⟨b0, b1⟩, -⟩ := idx_facts t
  have ht : t.val = (i 0).val / 5000 := rfl
  refine ⟨t, flush0_6 t, ?_⟩
  rw [mem_blk6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

theorem cover7 (i : S80x128.Idx) : ∃ t : Fin cfg0.N, (cfg0.win 7).flush t = true ∧ i ∈ ((cfg0.win 7).blk t).view.set := by
  have hi0 : (i 0).val < 80 := (i 0).isLt
  have hi1 : (i 1).val < 128 := (i 1).isLt
  have hN : cfg0.N = 10 := N_0
  let t : Fin cfg0.N := ⟨(i 0).val / 8, by rw [hN]; omega⟩
  obtain ⟨-, -, -, -, -, -, -, ⟨b0, b1⟩, -⟩ := idx_facts t
  have ht : t.val = (i 0).val / 8 := rfl
  refine ⟨t, flush0_7 t, ?_⟩
  rw [mem_blk7]
  intro a
  match a with
  | ⟨0, _⟩ => show win0_7.index t (0 : Fin 2) * 8 ≤ (i 0).val ∧ (i 0).val < win0_7.index t (0 : Fin 2) * 8 + 8; omega
  | ⟨1, _⟩ => show win0_7.index t (1 : Fin 2) * 128 ≤ (i 1).val ∧ (i 1).val < win0_7.index t (1 : Fin 2) * 128 + 128; omega

theorem cover8 (i : S80x128.Idx) : ∃ t : Fin cfg0.N, (cfg0.win 8).flush t = true ∧ i ∈ ((cfg0.win 8).blk t).view.set := by
  have hi0 : (i 0).val < 80 := (i 0).isLt
  have hi1 : (i 1).val < 128 := (i 1).isLt
  have hN : cfg0.N = 10 := N_0
  let t : Fin cfg0.N := ⟨(i 0).val / 8, by rw [hN]; omega⟩
  obtain ⟨-, -, -, -, -, -, -, -, ⟨b0, b1⟩⟩ := idx_facts t
  have ht : t.val = (i 0).val / 8 := rfl
  refine ⟨t, flush0_8 t, ?_⟩
  rw [mem_blk8]
  intro a
  match a with
  | ⟨0, _⟩ => show win0_8.index t (0 : Fin 2) * 8 ≤ (i 0).val ∧ (i 0).val < win0_8.index t (0 : Fin 2) * 8 + 8; omega
  | ⟨1, _⟩ => show win0_8.index t (1 : Fin 2) * 128 ≤ (i 1).val ∧ (i 1).val < win0_8.index t (1 : Fin 2) * 128 + 128; omega

/-! ## The three output arrays after the launch -/

theorem final6 (c : Dev nD) : (dat0 V c).arrAt 6 cfg0.N
    = GAct (V c main_v13) (V c main_arg0) (V c main_v15) (V c main_v17) (V c main_v18) (V c main_v19) :=
  (dat0 V c).arrAt_eq_of_cover 6 _ (fun t _ => flushed6_eq V c t) cover6

theorem final7 (c : Dev nD) : (dat0 V c).arrAt 7 cfg0.N
    = GSum (V c main_v13) (V c main_arg0) (V c main_v15) (V c main_v17) (V c main_v18) (V c main_v19) :=
  (dat0 V c).arrAt_eq_of_cover 7 _ (fun t _ => flushed7_eq V c t) cover7

theorem final8 (c : Dev nD) : (dat0 V c).arrAt 8 cfg0.N
    = GSq (V c main_v13) (V c main_arg0) (V c main_v15) (V c main_v17) (V c main_v18) (V c main_v19) :=
  (dat0 V c).arrAt_eq_of_cover 8 _ (fun t _ => flushed8_eq V c t) cover8

end Cert.KernelIdeal.Stage1

end
-- ==== Proof.KStage2.lean ====
/-
  The second launch, read as a value at the extended reals.

  At grid point `t` the body loads rows `5000·t … 5000·t + 4999` of the activations and the four whole `[1, 128]` rows
  (scale, shift, column mean, column inverse deviation) and stores, at row `p` and column `q` of the block,
  `scale q · (act (p, q) − mean q) · invdev q + shift q`. The ten blocks tile the `[50000, 128]` output, so after the
  launch the output array is that one function of the arrays the launch found, at every index.
-/
import proofs.«124991_j24120536334768_2_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.Stage2

open Cert.KernelIdeal Cert.KernelIdeal.Gen Idealize.ShloMosaic Idealize.ShloMosaic.TcCoe Idealize.SL.Sem
open Idealize.ShloMosaic.ValueIdx
open Idealize.ShloMosaic.Pipeline (Dat)

/-- The column coordinate of an index of a `[rows, 128]` array, as a number below 128. -/
abbrev col {n : Nat} (i : (⟨2, ![n, 128]⟩ : Shape).Idx) : Fin 128 := ⟨(i 1).val, idx2_lt1 i⟩

/-- What the output array holds after the launch: the normalisation of `act` by the four rows, index by index. -/
def G (act : S50000x128.Idx → EReal) (scale shift mu invdev : S1x128.Idx → EReal) : S50000x128.Idx → EReal :=
  fun i => scale (ix2 (0 : Fin 1) (col i)) * (act i - mu (ix2 (0 : Fin 1) (col i))) * invdev (ix2 (0 : Fin 1) (col i))
    + shift (ix2 (0 : Fin 1) (col i))

/-- The body's stored value at row `p`, column `q` of the block. -/
theorem pay_apply (act : FVec Ideal S5000x128 .f32) (scale mu invdev shift : FVec Ideal S1x128 .f32) (p : Fin 5000) (q : Fin 128) :
    k1_pay1 (F := Ideal) act scale mu invdev shift (ix2 p q)
      = scale (ix2 (0 : Fin 1) q) * (act (ix2 p q) - mu (ix2 (0 : Fin 1) q)) * invdev (ix2 (0 : Fin 1) q) + shift (ix2 (0 : Fin 1) q) := by
  unfold k1_pay1
  simp only [addf_apply, mulf_apply, subf_apply, shapeCast_self, broadcastTo_1b_ab_apply]

theorem hz : (![0, 0] : Fin 2 → Nat) = fun _ => 0 := funext fun a => by fin_cases a <;> rfl

/-- The printed index maps over the ten grid points: the activations' block and the output's block are block `t`
    along the rows and block 0 along the columns; the four rows are always block (0, 0). -/
theorem idx_facts : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

variable (V : (c : Dev nD) → (b : Ref sig .tc) → Buf (Elt Ideal) ((c : Thread nD τ).loc b))

/-- A `[1, 128]` window's block at any point is the whole row. -/
theorem row_read (c : Dev nD) (t : Fin cfg1.N) (q : Fin 128) :
    iblk1 V c 1 t (ix2 (0 : Fin 1) q) = V c main_v40 (ix2 (0 : Fin 1) q)
    ∧ iblk1 V c 2 t (ix2 (0 : Fin 1) q) = V c main_v41 (ix2 (0 : Fin 1) q)
    ∧ iblk1 V c 3 t (ix2 (0 : Fin 1) q) = V c main_v38 (ix2 (0 : Fin 1) q)
    ∧ iblk1 V c 4 t (ix2 (0 : Fin 1) q) = V c main_v39 (ix2 (0 : Fin 1) q) := by
  obtain ⟨-, -, -, -, a0, a1, b0, b1, c0, c1, d0, d1⟩ := idx_facts t
  refine ⟨?_, ?_, ?_, ?_⟩
  · show V c main_v40 (((cfg1.win 1).blk t).view.emb (ix2 (0 : Fin 1) q)) = V c main_v40 (ix2 (0 : Fin 1) q)
    refine congrArg (V c main_v40) (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · show V c main_v41 (((cfg1.win 2).blk t).view.emb (ix2 (0 : Fin 1) q)) = V c main_v41 (ix2 (0 : Fin 1) q)
    refine congrArg (V c main_v41) (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · show V c main_v38 (((cfg1.win 3).blk t).view.emb (ix2 (0 : Fin 1) q)) = V c main_v38 (ix2 (0 : Fin 1) q)
    refine congrArg (V c main_v38) (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  · show V c main_v39 (((cfg1.win 4).blk t).view.emb (ix2 (0 : Fin 1) q)) = V c main_v39 (ix2 (0 : Fin 1) q)
    refine congrArg (V c main_v39) (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega

/-- The activations' block at point `t` and the output's block at point `t` sit at the same place of their arrays. -/
theorem act_read (c : Dev nD) (t : Fin cfg1.N) (p : Fin 5000) (q : Fin 128) :
    iblk1 V c 0 t (ix2 p q) = V c main_v20_0 (((cfg1.win 5).blk t).view.emb (ix2 p q)) := by
  obtain ⟨a0, a1, b0, b1, -⟩ := idx_facts t
  show V c main_v20_0 (((cfg1.win 0).blk t).view.emb (ix2 p q)) = _
  refine congrArg (V c main_v20_0) (funext fun a => Fin.ext ?_)
  match a with
  | ⟨0, _⟩ => show win1_0.index t (0 : Fin 2) * 5000 + 1 * p.val = win1_5.index t (0 : Fin 2) * 5000 + 1 * p.val; omega
  | ⟨1, _⟩ => show win1_0.index t (1 : Fin 2) * 128 + 1 * q.val = win1_5.index t (1 : Fin 2) * 128 + 1 * q.val; omega

/-- The column of an element of the output's block is its column inside the block. -/
theorem col_emb (t : Fin cfg1.N) (p : Fin 5000) (q : Fin 128) :
    col (((cfg1.win 5).blk t).view.emb (ix2 p q)) = q := by
  obtain ⟨-, -, -, b1, -⟩ := idx_facts t
  refine Fin.ext ?_
  show win1_5.index t (1 : Fin 2) * 128 + 1 * q.val = q.val
  omega

/-- WHAT POINT `t` WRITES BACK is block `t` of `G` of the arrays as the launch finds them. -/
theorem flushed_eq (c : Dev nD) (t : Fin cfg1.N) :
    (dat1 V c).flushed 5 t = ((cfg1.win 5).blk t).view.read (Elt Ideal)
      (G (V c main_v20_0) (V c main_v40) (V c main_v41) (V c main_v38) (V c main_v39)) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  obtain ⟨e1, e2, e3, e4⟩ := row_read V c t q
  show k1_pay1 (F := Ideal) (iblk1 V c 0 t) (iblk1 V c 1 t) (iblk1 V c 3 t) (iblk1 V c 4 t) (iblk1 V c 2 t) (ix2 p q)
    = G (V c main_v20_0) (V c main_v40) (V c main_v41) (V c main_v38) (V c main_v39) (((cfg1.win 5).blk t).view.emb (ix2 p q))
  refine (pay_apply (iblk1 V c 0 t) (iblk1 V c 1 t) (iblk1 V c 3 t) (iblk1 V c 4 t) (iblk1 V c 2 t) p q).trans ?_
  unfold G
  rw [col_emb t p q, e1, e2, e3, e4, act_read V c t p q]

/-- An index of the output array is in point `t`'s block iff each coordinate is in the block's range. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v42).slice (win1_5.rect t)).set ↔ _
  rw [View.set_slice_whole, Rect.mem_set_unit]
  exact Iff.rfl

/-- Every index of the output array lies in the block of the point that owns its row. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, b0, b1, -⟩ := idx_facts t
  have ht : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the launch is `G` of the arrays the launch found. -/
theorem final (c : Dev nD) :
    (dat1 V c).arrAt 5 cfg1.N = G (V c main_v20_0) (V c main_v40) (V c main_v41) (V c main_v38) (V c main_v39) :=
  (dat1 V c).arrAt_eq_of_cover 5 _ (fun t _ => flushed_eq V c t) cover

end Cert.KernelIdeal.Stage2

end
-- ==== Proof.KHost.lean ====
/-
  The host operations around the two launches, read as values at the extended reals.

  Before the first launch the host gathers and scatter-adds the neighbour features, transposes the two weight matrices
  and reshapes the two biases to rows. Between the launches it adds the 80 rows of each table of partial sums, divides
  by eight and by the node count, forms the clipped variance and its inverse square root, and reshapes the statistics,
  the scale and the shift to rows. Each buffer the launches read is stated here at an index.
-/
import proofs.«124991_j24120536334768_2_alg».proof.Proof.Gen.KernelIdeal.Frame
import proofs.«124991_j24120536334768_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HostV

open Cert.KernelIdeal Cert.KernelIdeal.Gen Idealize.ShloMosaic Idealize.ShloMosaic.TcCoe Idealize.SL.Sem
open Idealize.ShloMosaic.ValueIdx Idealize.ShloMosaic.StableHlo
open scoped BigOperators

variable (m : (ℓ : Loc nD τ sig) → Buf (Elt Ideal) ℓ) (ρ : Dev nD → PrngReg)

/-! ## Before the first launch -/

/-- The node features reach the first launch as launched. -/
theorem V1_x (c : Dev nD) : V1 m ρ c main_arg0 = m ((c : Thread nD τ).loc main_arg0) := by
  show StableHlo.after hostOps0 (W0 m ρ c) (Proc.devRef .tc main_arg0) = _
  after_results

/-- The left weight matrix reaches the first launch transposed: entry `(k, o)` is `W_l (o, k)`. -/
theorem V1_wl (c : Dev nD) (k o : Fin 128) :
    V1 m ρ c main_v15 (ix2 k o) = m ((c : Thread nD τ).loc main_arg2) (ix2 o k) := by
  show StableHlo.after hostOps0 (W0 m ρ c) (Proc.devRef .tc main_v15) (ix2 k o) = _
  after_results
  rw [truncf_apply, transpose_ix2_apply]

/-- The right weight matrix likewise. -/
theorem V1_wr (c : Dev nD) (k o : Fin 128) :
    V1 m ρ c main_v17 (ix2 k o) = m ((c : Thread nD τ).loc main_arg4) (ix2 o k) := by
  show StableHlo.after hostOps0 (W0 m ρ c) (Proc.devRef .tc main_v17) (ix2 k o) = _
  after_results
  rw [truncf_apply, transpose_ix2_apply]

/-- The left bias reaches the first launch as a row. -/
theorem V1_bl (c : Dev nD) (o : Fin 128) :
    V1 m ρ c main_v18 (ix2 (0 : Fin 1) o) = m ((c : Thread nD τ).loc main_arg3) (ix1 o) := by
  show StableHlo.after hostOps0 (W0 m ρ c) (Proc.devRef .tc main_v18) (ix2 (0 : Fin 1) o) = _
  after_results
  show shapeCast S1x128 (W0 m ρ c (Proc.devRef .tc main_arg3)) shapeCasts_S128_S1x128 (ix2 (0 : Fin 1) o) = _
  rw [shapeCast_a_1a_apply]

/-- The right bias likewise. -/
theorem V1_br (c : Dev nD) (o : Fin 128) :
    V1 m ρ c main_v19 (ix2 (0 : Fin 1) o) = m ((c : Thread nD τ).loc main_arg5) (ix1 o) := by
  show StableHlo.after hostOps0 (W0 m ρ c) (Proc.devRef .tc main_v19) (ix2 (0 : Fin 1) o) = _
  after_results
  show shapeCast S1x128 (W0 m ρ c (Proc.devRef .tc main_arg5)) shapeCasts_S128_S1x128 (ix2 (0 : Fin 1) o) = _
  rw [shapeCast_a_1a_apply]

/-! ## Between the launches -/

/-- The sum over the 80 rows of a table, from zero, at column `o`. -/
theorem tableSum_apply (T : FVec Ideal S80x128 .f32) (o : Fin 128) :
    Host.reduceAdd (F := Ideal) T (constant S_ .f32 0x00000000#32) reducesTo_S80x128_S128_d0 h_S_ (ix1 o)
      = 0 + ∑ r : Fin 80, T (ix2 r o) := by
  simp only [Host.reduceAdd, Ideal.hostReduceAdd_def]
  rw [Ideal.hostReduceAdd_single reducesTo_S80x128_S128_d0 (by decide)]
  exact congrArg₂ (fun a b : EReal => a + b) Ideal.ofBits_zero_f32
    (Finset.sum_congr rfl fun r _ => congrArg T (funext fun a => Fin.ext (by match a with | ⟨0, _⟩ => rfl | ⟨1, _⟩ => rfl)))

/-- A table's column totals divided by eight and by the node count: the column means of what the table sums. -/
def meanVec (T : FVec Ideal S80x128 .f32) : FVec Ideal S128 .f32 :=
  Host.divf
    (Host.divf (Host.reduceAdd T (constant S_ .f32 0x00000000#32) reducesTo_S80x128_S128_d0 h_S_)
      (broadcastInDim S128 ![] bcast_S_S128 (constant S_ .f32 0x41000000#32)))
    (broadcastInDim S128 ![] bcast_S_S128 (constant S_ .f32 0x47435000#32))

/-- One over the square root of the clipped variance plus the small constant, from the two tables. -/
def invStdVec (T1 T2 : FVec Ideal S80x128 .f32) : FVec Ideal S128 .f32 :=
  Host.rsqrt (addf (maximumf (subf (meanVec T2) (mulf (meanVec T1) (meanVec T1)))
      (broadcastInDim S128 ![] bcast_S_S128 (constant S_ .f32 0x00000000#32)))
    (broadcastInDim S128 ![] bcast_S_S128 (constant S_ .f32 0x3727C5AC#32)))

theorem meanVec_apply (T : FVec Ideal S80x128 .f32) (o : Fin 128) :
    meanVec T (ix1 o) = Ideal.div (Ideal.div (0 + ∑ r : Fin 80, T (ix2 r o)) Cert.Sage.eight) Cert.Sage.cnt := by
  unfold meanVec
  show Ideal.div (Ideal.div (Host.reduceAdd (F := Ideal) T (constant S_ .f32 0x00000000#32) reducesTo_S80x128_S128_d0 h_S_ (ix1 o))
    (Ideal.ofBits .f32 0x41000000#32)) (Ideal.ofBits .f32 0x47435000#32) = _
  rw [tableSum_apply]
  rfl

theorem invStdVec_apply (T1 T2 : FVec Ideal S80x128 .f32) (o : Fin 128) :
    invStdVec T1 T2 (ix1 o)
      = Ideal.rsqrt (max (meanVec T2 (ix1 o) - meanVec T1 (ix1 o) * meanVec T1 (ix1 o)) 0 + Cert.Sage.eps) := by
  unfold invStdVec
  show Ideal.rsqrt (max (meanVec T2 (ix1 o) - meanVec T1 (ix1 o) * meanVec T1 (ix1 o)) (Ideal.ofBits .f32 0x00000000#32)
    + Ideal.ofBits .f32 0x3727C5AC#32) = _
  rw [Ideal.ofBits_zero_f32]
  rfl

/-- The activations reach the second launch as the first launch left them. -/
theorem V3_act (c : Dev nD) : V3 m ρ c main_v20_0 = W2 m ρ c (Proc.devRef .tc main_v20_0) := by
  show StableHlo.after hostOps1 (W2 m ρ c) (Proc.devRef .tc main_v20_0) = _
  after_results

/-- An argument the first launch does not touch is, after it, as launched. -/
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)

/-- The scale reaches the second launch as a row. -/
theorem V3_scale (c : Dev nD) (o : Fin 128) :
    V3 m ρ c main_v40 (ix2 (0 : Fin 1) o) = m ((c : Thread nD τ).loc main_arg6) (ix1 o) := by
  show StableHlo.after hostOps1 (W2 m ρ c) (Proc.devRef .tc main_v40) (ix2 (0 : Fin 1) o) = _
  after_results
  show shapeCast S1x128 (W2 m ρ c (Proc.devRef .tc main_arg6)) shapeCasts_S128_S1x128 (ix2 (0 : Fin 1) o) = _
  rw [shapeCast_a_1a_apply, W2_arg6]

/-- The shift likewise. -/
theorem V3_shift (c : Dev nD) (o : Fin 128) :
    V3 m ρ c main_v41 (ix2 (0 : Fin 1) o) = m ((c : Thread nD τ).loc main_arg7) (ix1 o) := by
  show StableHlo.after hostOps1 (W2 m ρ c) (Proc.devRef .tc main_v41) (ix2 (0 : Fin 1) o) = _
  after_results
  show shapeCast S1x128 (W2 m ρ c (Proc.devRef .tc main_arg7)) shapeCasts_S128_S1x128 (ix2 (0 : Fin 1) o) = _
  rw [shapeCast_a_1a_apply, W2_arg7]

/-- The column means reach the second launch as a row. -/
theorem V3_mean (c : Dev nD) (o : Fin 128) :
    V3 m ρ c main_v38 (ix2 (0 : Fin 1) o) = meanVec (W2 m ρ c (Proc.devRef .tc main_v20_1)) (ix1 o) := by
  show StableHlo.after hostOps1 (W2 m ρ c) (Proc.devRef .tc main_v38) (ix2 (0 : Fin 1) o) = _
  after_results
  show shapeCast S1x128 (meanVec (W2 m ρ c (Proc.devRef .tc main_v20_1))) shapeCasts_S128_S1x128 (ix2 (0 : Fin 1) o) = _
  rw [shapeCast_a_1a_apply]

set_option maxHeartbeats 1000000 in
/-- The column inverse deviations reach the second launch as a row. -/
theorem V3_invstd (c : Dev nD) (o : Fin 128) :
    V3 m ρ c main_v39 (ix2 (0 : Fin 1) o)
      = invStdVec (W2 m ρ c (Proc.devRef .tc main_v20_1)) (W2 m ρ c (Proc.devRef .tc main_v20_2)) (ix1 o) := by
  show StableHlo.after hostOps1 (W2 m ρ c) (Proc.devRef .tc main_v39) (ix2 (0 : Fin 1) o) = _
  after_results
  show shapeCast S1x128 (invStdVec (W2 m ρ c (Proc.devRef .tc main_v20_1)) (W2 m ρ c (Proc.devRef .tc main_v20_2)))
    shapeCasts_S128_S1x128 (ix2 (0 : Fin 1) o) = _
  rw [shapeCast_a_1a_apply]

end Cert.KernelIdeal.HostV

end
-- ==== Proof.KValue.lean ====
/-
  The kernel program's result at an index.

  The result buffer ends at what the second launch's write-backs leave (the run), which is the normalisation of the
  activations by the four rows the launch found (the second launch); those rows are the scale, the shift, and the
  column statistics the host formed from the two tables of per-tile partial sums; the activations and the tables are
  what the first launch left (the first launch); and the arrays the first launch found are the aggregated features, the
  node features, the transposed weights and the bias rows (the host prologue). Put together, entry `(n, o)` of the
  result is the tiled-statistics normalisation of the hidden activations.
-/
import proofs.«124991_j24120536334768_2_alg».proof.Proof.KRun
import proofs.«124991_j24120536334768_2_alg».proof.Proof.KStage1
import proofs.«124991_j24120536334768_2_alg».proof.Proof.KStage2
import proofs.«124991_j24120536334768_2_alg».proof.Proof.KHost

noncomputable section

namespace Cert.KernelIdeal.ValueK

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ) (ρ : Dev nD → PrngReg)

/-- The activation over the staged arrays is the hidden activation over the launch arrays: the staged weights are the
    transposes, the staged biases the rows. -/
theorem act_eq_hidden (c : Dev nD) (n : Fin 50000) (o : Fin 128) :
    Stage1.act (V1 m ρ c main_v13) (V1 m ρ c main_arg0) (V1 m ρ c main_v15) (V1 m ρ c main_v17) (V1 m ρ c main_v18)
        (V1 m ρ c main_v19) n o
      = Cert.Sage.hidden (V1 m ρ c main_v13) (m ((c : Thread nD τ).loc main_arg0)) (m ((c : Thread nD τ).loc main_arg2))
          (m ((c : Thread nD τ).loc main_arg3)) (m ((c : Thread nD τ).loc main_arg4)) (m ((c : Thread nD τ).loc main_arg5)) n o := by
  unfold Stage1.act Cert.Sage.hidden
  rw [HostV.V1_bl, HostV.V1_br, HostV.V1_x]
  refine congrArg (fun z : EReal => max z 0) ?_
  refine congrArg₂ (fun a b : EReal => a + b) (congrArg₂ (fun a b : EReal => a + b) (congrArg₂ (fun a b : EReal => a + b) ?_ rfl) ?_) rfl
  · exact Finset.sum_congr rfl fun k _ => by rw [HostV.V1_wl]
  · exact Finset.sum_congr rfl fun k _ => by rw [HostV.V1_wr]

/-- The hidden activations of the kernel program, as a function of node and feature. -/
def hid (c : Dev nD) : Fin 50000 → Fin 128 → EReal := fun n o =>
  Stage1.act (V1 m ρ c main_v13) (V1 m ρ c main_arg0) (V1 m ρ c main_v15) (V1 m ρ c main_v17) (V1 m ρ c main_v18)
    (V1 m ρ c main_v19) n o

theorem hid_eq (c : Dev nD) : hid m ρ c = fun n o =>
    Cert.Sage.hidden (V1 m ρ c main_v13) (m ((c : Thread nD τ).loc main_arg0)) (m ((c : Thread nD τ).loc main_arg2))
      (m ((c : Thread nD τ).loc main_arg3)) (m ((c : Thread nD τ).loc main_arg4)) (m ((c : Thread nD τ).loc main_arg5)) n o :=
  funext fun n => funext fun o => act_eq_hidden m ρ c n o

/-- What the first launch leaves in its three output arrays. -/
theorem W2_act (c : Dev nD) : W2 m ρ c (Proc.devRef .tc main_v20_0)
    = Stage1.GAct (V1 m ρ c main_v13) (V1 m ρ c main_arg0) (V1 m ρ c main_v15) (V1 m ρ c main_v17) (V1 m ρ c main_v18) (V1 m ρ c main_v19) :=
  (W2_arr m ρ c 6).trans (Stage1.final6 (V1 m ρ) c)
theorem W2_sum (c : Dev nD) : W2 m ρ c (Proc.devRef .tc main_v20_1)
    = Stage1.GSum (V1 m ρ c main_v13) (V1 m ρ c main_arg0) (V1 m ρ c main_v15) (V1 m ρ c main_v17) (V1 m ρ c main_v18) (V1 m ρ c main_v19) :=
  (W2_arr m ρ c 7).trans (Stage1.final7 (V1 m ρ) c)
theorem W2_sq (c : Dev nD) : W2 m ρ c (Proc.devRef .tc main_v20_2)
    = Stage1.GSq (V1 m ρ c main_v13) (V1 m ρ c main_arg0) (V1 m ρ c main_v15) (V1 m ρ c main_v17) (V1 m ρ c main_v18) (V1 m ρ c main_v19) :=
  (W2_arr m ρ c 8).trans (Stage1.final8 (V1 m ρ) c)

/-- The second launch's output function at node `n`, feature `o`. -/
theorem G_apply (act : S50000x128.Idx → EReal) (scale shift mu invdev : S1x128.Idx → EReal) (n : Fin 50000) (o : Fin 128) :
    Stage2.G act scale shift mu invdev (ix2 n o)
      = scale (ix2 (0 : Fin 1) o) * (act (ix2 n o) - mu (ix2 (0 : Fin 1) o)) * invdev (ix2 (0 : Fin 1) o) + shift (ix2 (0 : Fin 1) o) := rfl

/-- ENTRY `(n, o)` OF THE RESULT: the tiled-statistics normalisation of the kernel's hidden activations. -/
theorem result_tiled (c : Dev nD) (n : Fin 50000) (o : Fin 128) :
    W4 m ρ c (Proc.devRef .tc main_v42) (ix2 n o)
      = Cert.Sage.outTiled (hid m ρ c) (m ((c : Thread nD τ).loc main_arg6)) (m ((c : Thread nD τ).loc main_arg7)) n o := by
  have h4 : W4 m ρ c (Proc.devRef .tc main_v42) = Stage2.G (V3 m ρ c main_v20_0) (V3 m ρ c main_v40) (V3 m ρ c main_v41)
      (V3 m ρ c main_v38) (V3 m ρ c main_v39) := (W4_arr m ρ c 5).trans (Stage2.final (V3 m ρ) c)
  rw [h4, G_apply]
  rw [HostV.V3_scale, HostV.V3_shift, HostV.V3_mean, HostV.V3_invstd, HostV.V3_act, W2_act, W2_sum, W2_sq,
    HostV.invStdVec_apply, HostV.meanVec_apply, HostV.meanVec_apply]
  rfl

/-- The same over the launch arrays. -/
theorem result_apply (c : Dev nD) (n : Fin 50000) (o : Fin 128) :
    W4 m ρ c (Proc.devRef .tc main_v42) (ix2 n o)
      = Cert.Sage.outTiled (fun n o => Cert.Sage.hidden (V1 m ρ c main_v13) (m ((c : Thread nD τ).loc main_arg0))
          (m ((c : Thread nD τ).loc main_arg2)) (m ((c : Thread nD τ).loc main_arg3)) (m ((c : Thread nD τ).loc main_arg4))
          (m ((c : Thread nD τ).loc main_arg5)) n o)
        (m ((c : Thread nD τ).loc main_arg6)) (m ((c : Thread nD τ).loc main_arg7)) n o := by
  rw [result_tiled, hid_eq]

end Cert.KernelIdeal.ValueK

end
-- ==== Proof.KAgg.lean ====
/-
  The aggregated neighbour features that the first launch reads are the reference's.

  Before its first launch the kernel program gathers the node features along the edge list's source row and
  scatter-adds them, from a zero table, along its destination row. The reference program does the same, operation for
  operation, so the buffer the launch finds holds the reference's aggregate of the same two arguments.
-/
import proofs.«124991_j24120536334768_2_alg».proof.Proof.Gen.KernelIdeal.Frame
import proofs.«124991_j24120536334768_2_alg».proof.Proof.Gen.ReferenceIdeal.Read
import Idealize.ShloMosaic.Lib.StableHlo.Run

noncomputable section

namespace Cert.KernelIdeal.AggV

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 1000000 in
/-- The buffer of aggregated features, as the first launch finds it, is the reference's scatter-add of its gather,
    both taken of the launch contents of the node features and of the edge list. -/
theorem V1_agg (c : Dev nD) :
    (V1 m ρ c main_v13 : S50000x128.Idx → EReal)
      = Cert.ReferenceIdeal.Read.val_main_v13 (F := Ideal) (m ((c : Thread nD τ).loc main_arg0))
          (m ((c : Thread nD τ).loc main_arg1)) := by
  show StableHlo.after hostOps0 (W0 m ρ c) (Proc.devRef .tc main_v13) = _
  after_results
  unfold Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0 Cert.ReferenceIdeal.Read.val_main_c Cert.ReferenceIdeal.Read.val_main_c_0 Cert.ReferenceIdeal.Read.val_main_cst
  rfl

end Cert.KernelIdeal.AggV

end
-- ==== Proof.RValue.lean ====
/-
  The reference program's result, read at an index, is the two-pass normalisation of the hidden activations.

  The program is read one operation at a time through the index lemmas of the module imported below. At the index of
  node `n` and feature `o` each layout operation reads its operand at an index that is again written with explicit
  coordinates: a bias or a column statistic broadcast over the nodes is read at feature `o`, a contraction runs over
  the shared feature axis, a column sum runs over the nodes at feature `o`. Chaining these gives first the hidden
  activation (`hidden_eq`), then the column mean and the column variance of the hidden activations (`mean_eq`,
  `var_eq`), and last the normalised output (`result_eq`). The aggregated neighbour features (the gather followed by
  the scatter-add) are never opened: they enter only as the array `val_main_v13 x0 x1`.
-/
import proofs.«124991_j24120536334768_2_alg».proof.Proof.Spec
import proofs.«124991_j24120536334768_2_alg».proof.Proof.Gen.ReferenceIdeal.Read

noncomputable section

namespace Cert.ReferenceIdeal.RefValue

open Cert.ReferenceIdeal Cert.ReferenceIdeal.Gen Cert.ReferenceIdeal.Read Cert.Sage Idealize.ShloMosaic
  Idealize.ShloMosaic.ValueIdx
open scoped BigOperators

/-! ### The layout operations' indices at explicit coordinates -/

theorem lidx14 (n : Fin 50000) (o k : Fin 128) : lidx_main_v14 (ix2 n o) k = ix2 n k :=
  funext fun a => Fin.ext (by match a with | ⟨0, _⟩ => rfl | ⟨1, _⟩ => rfl)
theorem ridx14 (n : Fin 50000) (o k : Fin 128) : ridx_main_v14 (ix2 n o) k = ix2 o k :=
  funext fun a => Fin.ext (by match a with | ⟨0, _⟩ => rfl | ⟨1, _⟩ => rfl)
theorem lidx18 (n : Fin 50000) (o k : Fin 128) : lidx_main_v18 (ix2 n o) k = ix2 n k :=
  funext fun a => Fin.ext (by match a with | ⟨0, _⟩ => rfl | ⟨1, _⟩ => rfl)
theorem ridx18 (n : Fin 50000) (o k : Fin 128) : ridx_main_v18 (ix2 n o) k = ix2 o k :=
  funext fun a => Fin.ext (by match a with | ⟨0, _⟩ => rfl | ⟨1, _⟩ => rfl)
theorem idx15_16 (n : Fin 50000) (o : Fin 128) : idx_main_v15 (idx_main_v16 (ix2 n o)) = ix1 o :=
  funext fun a => Fin.ext (by match a with | ⟨0, _⟩ => rfl)
theorem idx20_21 (n : Fin 50000) (o : Fin 128) : idx_main_v20 (idx_main_v21 (ix2 n o)) = ix1 o :=
  funext fun a => Fin.ext (by match a with | ⟨0, _⟩ => rfl)
theorem idx27_28 (n : Fin 50000) (o : Fin 128) : idx_main_v27 (idx_main_v28 (ix2 n o)) = ix1 o :=
  funext fun a => Fin.ext (by match a with | ⟨0, _⟩ => rfl)
theorem idx34_35 (n : Fin 50000) (o : Fin 128) : idx_main_v34 (idx_main_v35 (ix2 n o)) = ix1 o :=
  funext fun a => Fin.ext (by match a with | ⟨0, _⟩ => rfl)
theorem idx37_38 (n : Fin 50000) (o : Fin 128) : idx_main_v37 (idx_main_v38 (ix2 n o)) = ix1 o :=
  funext fun a => Fin.ext (by match a with | ⟨0, _⟩ => rfl)
theorem idx43_44 (n : Fin 50000) (o : Fin 128) : idx_main_v43 (idx_main_v44 (ix2 n o)) = ix1 o :=
  funext fun a => Fin.ext (by match a with | ⟨0, _⟩ => rfl)
theorem idx46_47 (n : Fin 50000) (o : Fin 128) : idx_main_v46 (idx_main_v47 (ix2 n o)) = ix1 o :=
  funext fun a => Fin.ext (by match a with | ⟨0, _⟩ => rfl)
theorem idx24 (o : Fin 128) (k : Fin 50000) : idx_main_v24 (ix1 o) k = ix2 k o :=
  funext fun a => Fin.ext (by match a with | ⟨0, _⟩ => rfl | ⟨1, _⟩ => rfl)
theorem idx31 (o : Fin 128) (k : Fin 50000) : idx_main_v31 (ix1 o) k = ix2 k o :=
  funext fun a => Fin.ext (by match a with | ⟨0, _⟩ => rfl | ⟨1, _⟩ => rfl)

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 x7 : (⟨S128, .f32⟩ : BufTy).Contents (Elt Ideal))

/-! ### The hidden activation -/

/-- The aggregated features times the left weights: the contraction runs over the feature axis. -/
theorem dot14 (n : Fin 50000) (o : Fin 128) :
    val_main_v14 (F := Ideal) x0 x1 x2 (ix2 n o)
      = ∑ k : Fin 128, val_main_v13 (F := Ideal) x0 x1 (ix2 n k) * x2 (ix2 o k) :=
  (val_main_v14_apply x0 x1 x2 (ix2 n o)).trans
    (Finset.sum_congr rfl fun k _ => by rw [lidx14, ridx14])

/-- The node features times the right weights. -/
theorem dot18 (n : Fin 50000) (o : Fin 128) :
    val_main_v18 (F := Ideal) x0 x4 (ix2 n o) = ∑ k : Fin 128, x0 (ix2 n k) * x4 (ix2 o k) :=
  (val_main_v18_apply x0 x4 (ix2 n o)).trans
    (Finset.sum_congr rfl fun k _ => by rw [lidx18, ridx18])

/-- The left bias broadcast over the nodes. -/
theorem bias16 (n : Fin 50000) (o : Fin 128) : val_main_v16 (F := Ideal) x3 (ix2 n o) = x3 (ix1 o) := by
  rw [val_main_v16_apply, val_main_v15_apply, idx15_16]

/-- The right bias broadcast over the nodes. -/
theorem bias21 (n : Fin 50000) (o : Fin 128) : val_main_v21 (F := Ideal) x5 (ix2 n o) = x5 (ix1 o) := by
  rw [val_main_v21_apply, val_main_v20_apply, idx20_21]

/-- The rectifier's zero. -/
theorem relu_zero (i : S50000x128.Idx) : val_main_call0_v0 (F := Ideal) i = (0 : EReal) := by
  rw [val_main_call0_v0_apply, val_main_call0_cst_apply, Ideal.ofBits_def, Ideal.ofBits_zero_f32]

/-- The rectified sum of the two linear maps is the hidden activation of the specification. -/
theorem hidden_eq (n : Fin 50000) (o : Fin 128) :
    val_main_v23 (F := Ideal) x0 x1 x2 x3 x4 x5 (ix2 n o)
      = hidden (val_main_v13 (F := Ideal) x0 x1) x0 x2 x3 x4 x5 n o := by
  rw [val_main_v23_apply, val_main_v22_apply, val_main_v19_apply, val_main_v17_apply, dot14, bias16, dot18, bias21,
    relu_zero]
  rfl

/-! ### The column statistics -/

/-- The column sum of the hidden activations, from zero. -/
theorem colsum (o : Fin 128) :
    val_main_v24 (F := Ideal) x0 x1 x2 x3 x4 x5 (ix1 o)
      = (0 : EReal) + ∑ n : Fin 50000, hidden (val_main_v13 (F := Ideal) x0 x1) x0 x2 x3 x4 x5 n o := by
  rw [val_main_v24_apply, val_main_cst_1_apply, Ideal.ofBits_def, Ideal.ofBits_zero_f32]
  exact congrArg (fun s : EReal => (0 : EReal) + s)
    (Finset.sum_congr rfl fun k _ => (congrArg _ (idx24 o k)).trans (hidden_eq x0 x1 x2 x3 x4 x5 k o))

/-- The column mean. -/
theorem mean_eq (o : Fin 128) :
    val_main_v26 (F := Ideal) x0 x1 x2 x3 x4 x5 (ix1 o)
      = mean (fun n o => hidden (val_main_v13 (F := Ideal) x0 x1) x0 x2 x3 x4 x5 n o) o := by
  rw [val_main_v26_apply, colsum, val_main_v25_apply, val_main_cst_2_apply, Ideal.ofBits_def, Ideal.hostDivf_def]
  rfl

/-- The column mean broadcast over the nodes (first use: inside the variance). -/
theorem mean28 (n : Fin 50000) (o : Fin 128) :
    val_main_v28 (F := Ideal) x0 x1 x2 x3 x4 x5 (ix2 n o)
      = mean (fun n o => hidden (val_main_v13 (F := Ideal) x0 x1) x0 x2 x3 x4 x5 n o) o := by
  rw [val_main_v28_apply, val_main_v27_apply, idx27_28, mean_eq]

/-- The column mean broadcast over the nodes (second use: the centred output). -/
theorem mean35 (n : Fin 50000) (o : Fin 128) :
    val_main_v35 (F := Ideal) x0 x1 x2 x3 x4 x5 (ix2 n o)
      = mean (fun n o => hidden (val_main_v13 (F := Ideal) x0 x1) x0 x2 x3 x4 x5 n o) o := by
  rw [val_main_v35_apply, val_main_v34_apply, idx34_35, mean_eq]

/-- The squared deviation from the column mean. -/
theorem sqdev (n : Fin 50000) (o : Fin 128) :
    val_main_v30 (F := Ideal) x0 x1 x2 x3 x4 x5 (ix2 n o)
      = (hidden (val_main_v13 (F := Ideal) x0 x1) x0 x2 x3 x4 x5 n o
          - mean (fun n o => hidden (val_main_v13 (F := Ideal) x0 x1) x0 x2 x3 x4 x5 n o) o)
        * (hidden (val_main_v13 (F := Ideal) x0 x1) x0 x2 x3 x4 x5 n o
          - mean (fun n o => hidden (val_main_v13 (F := Ideal) x0 x1) x0 x2 x3 x4 x5 n o) o) := by
  rw [val_main_v30_apply, val_main_v29_apply, hidden_eq, mean28]
  rfl

/-- The column variance. -/
theorem var_eq (o : Fin 128) :
    val_main_v33 (F := Ideal) x0 x1 x2 x3 x4 x5 (ix1 o)
      = var (fun n o => hidden (val_main_v13 (F := Ideal) x0 x1) x0 x2 x3 x4 x5 n o) o := by
  rw [val_main_v33_apply, val_main_v31_apply, val_main_cst_3_apply, val_main_v32_apply, val_main_cst_4_apply,
    Ideal.hostDivf_def]
  simp only [Ideal.ofBits_def, Ideal.ofBits_zero_f32]
  exact congrArg (fun s : EReal => Ideal.div ((0 : EReal) + s) (Ideal.ofBits .f32 0x47435000#32))
    (Finset.sum_congr rfl fun k _ => (congrArg _ (idx31 o k)).trans (sqdev x0 x1 x2 x3 x4 x5 k o))

/-- One over the square root of the variance plus the small constant. -/
theorem invstd42 (o : Fin 128) :
    val_main_v42 (F := Ideal) x0 x1 x2 x3 x4 x5 (ix1 o)
      = Ideal.rsqrt (var (fun n o => hidden (val_main_v13 (F := Ideal) x0 x1) x0 x2 x3 x4 x5 n o) o + eps) := by
  rw [val_main_v42_apply, val_main_v41_apply, var_eq, val_main_v40_apply, val_main_cst_5_apply, Ideal.ofBits_def,
    Ideal.hostUnary_rsqrt_def]
  rfl

/-- The same, broadcast over the nodes. -/
theorem invstd44 (n : Fin 50000) (o : Fin 128) :
    val_main_v44 (F := Ideal) x0 x1 x2 x3 x4 x5 (ix2 n o)
      = Ideal.rsqrt (var (fun n o => hidden (val_main_v13 (F := Ideal) x0 x1) x0 x2 x3 x4 x5 n o) o + eps) := by
  rw [val_main_v44_apply, val_main_v43_apply, idx43_44, invstd42]

/-- The scale broadcast over the nodes. -/
theorem scale38 (n : Fin 50000) (o : Fin 128) : val_main_v38 (F := Ideal) x6 (ix2 n o) = x6 (ix1 o) := by
  rw [val_main_v38_apply, val_main_v37_apply, idx37_38]

/-- The shift broadcast over the nodes. -/
theorem shift47 (n : Fin 50000) (o : Fin 128) : val_main_v47 (F := Ideal) x7 (ix2 n o) = x7 (ix1 o) := by
  rw [val_main_v47_apply, val_main_v46_apply, idx46_47]

/-! ### The result -/

/-- The reference program's result is the two-pass normalisation of the hidden activations. -/
theorem result_eq (n : Fin 50000) (o : Fin 128) :
    val_main_v48 (F := Ideal) x0 x1 x2 x3 x4 x5 x6 x7 (ix2 n o)
      = outTwoPass (fun n o => hidden (val_main_v13 (F := Ideal) x0 x1) x0 x2 x3 x4 x5 n o) x6 x7 n o := by
  rw [val_main_v48_apply, val_main_v45_apply, val_main_v39_apply, val_main_v36_apply, hidden_eq, mean35, scale38,
    invstd44, shift47]
  rfl

end Cert.ReferenceIdeal.RefValue

end
-- ==== Proof.FiniteMath.lean ====
/-
  Everything that enters the column statistics is a real number.

  An extended real is called real when it is the image of a real number. Sums, products and maxima of real values are
  real, so a gather of real values is real (it only selects entries), a scatter-add into real values of real updates is
  real (each entry is its old value plus a finite sum of updates), and the hidden activation of every node at every
  feature is real when the aggregated features, the node features, the two weight matrices and the two biases are.
-/
import proofs.«124991_j24120536334768_2_alg».proof.Proof.Spec
import Idealize.ShloMosaic.PureOps.Ideal
import Idealize.ShloMosaic.PureOps.Contract

noncomputable section

namespace Cert.Sage

open Idealize.ShloMosaic Idealize.ShloMosaic.ValueIdx
open scoped BigOperators

/-- An extended real that is (the image of) a real number. -/
def IsReal (v : EReal) : Prop := ∃ r : ℝ, v = (r : EReal)

theorem isReal_coe (r : ℝ) : IsReal (r : EReal) := ⟨r, rfl⟩

theorem isReal_zero : IsReal 0 := ⟨0, EReal.coe_zero.symm⟩

theorem isReal_add {a b : EReal} (ha : IsReal a) (hb : IsReal b) : IsReal (a + b) := by
  obtain ⟨r, rfl⟩ := ha
  obtain ⟨q, rfl⟩ := hb
  exact ⟨r + q, (EReal.coe_add r q).symm⟩

theorem isReal_mul {a b : EReal} (ha : IsReal a) (hb : IsReal b) : IsReal (a * b) := by
  obtain ⟨r, rfl⟩ := ha
  obtain ⟨q, rfl⟩ := hb
  exact ⟨r * q, (EReal.coe_mul r q).symm⟩

theorem isReal_max {a b : EReal} (ha : IsReal a) (hb : IsReal b) : IsReal (max a b) := by
  rcases max_choice a b with h | h <;> rw [h] <;> assumption

/-- A finite sum of real values is real. -/
theorem isReal_sum {ι : Type*} (s : Finset ι) (f : ι → EReal) (hf : ∀ i ∈ s, IsReal (f i)) :
    IsReal (∑ i ∈ s, f i) :=
  Finset.sum_induction f IsReal (fun _ _ ha hb => isReal_add ha hb) isReal_zero hf

/-- A gather only selects entries of its operand. -/
theorem gather_isReal {s si t : Shape} {w : Nat} (d : GatherDims s si t) (x : s.Idx → EReal) (idx : IVec si w)
    (hx : ∀ i, IsReal (x i)) : ∀ j, IsReal (Host.gather d x idx j) :=
  fun j => hx (d.operandIdx j idx)

/-- A scatter-add puts at every entry its old value plus the sum of the updates that land there. -/
theorem scatterAdd_isReal {s si su : Shape} {w : Nat} (d : ScatterDims s si su) (x : FVec Ideal s .f32)
    (idx : IVec si w) (upd : FVec Ideal su .f32) (hx : ∀ i, IsReal (x i)) (hu : ∀ j, IsReal (upd j)) :
    ∀ i, IsReal (Host.scatterAdd (F := Ideal) d x idx upd i) := by
  intro i
  show IsReal (Ideal.hostScatterAdd d x idx upd i)
  unfold Ideal.hostScatterAdd
  exact isReal_add (hx i) (isReal_sum _ _ fun j _ => hu j)

/-- The hidden activation is real when all six of its inputs are. -/
theorem hidden_isReal (agg x : Arr2 50000 128) (wl : Arr2 128 128) (bl : Arr1 128) (wr : Arr2 128 128) (br : Arr1 128)
    (hagg : ∀ i, IsReal (agg i)) (hx : ∀ i, IsReal (x i)) (hwl : ∀ i, IsReal (wl i)) (hbl : ∀ i, IsReal (bl i))
    (hwr : ∀ i, IsReal (wr i)) (hbr : ∀ i, IsReal (br i)) :
    ∀ n o, ∃ r : ℝ, hidden agg x wl bl wr br n o = (r : EReal) := by
  intro n o
  show IsReal (hidden agg x wl bl wr br n o)
  unfold hidden
  refine isReal_max (isReal_add (isReal_add (isReal_add ?_ (hbl _)) ?_) (hbr _)) isReal_zero
  · exact isReal_sum _ _ fun k _ => isReal_mul (hagg _) (hwl _)
  · exact isReal_sum _ _ fun k _ => isReal_mul (hx _) (hwr _)

end Cert.Sage

end
-- ==== Proof.AggReal.lean ====
/-
  The aggregated neighbour features are real when the node features are.

  The aggregation is a scatter-add, into an array of zeros, of rows gathered from the node features. A gather only
  selects entries, so the gathered rows are real; zero is real; and a scatter-add puts at every entry its old value plus
  a finite sum of updates, so every aggregated entry is real. The integer index arrays that say which rows are gathered
  and where they are added play no part.
-/
import proofs.«124991_j24120536334768_2_alg».proof.Proof.FiniteMath
import proofs.«124991_j24120536334768_2_alg».proof.Proof.Gen.ReferenceIdeal.Read

noncomputable section

namespace Cert.ReferenceIdeal.RefValue

open Cert.ReferenceIdeal Cert.ReferenceIdeal.Gen Cert.ReferenceIdeal.Read Cert.Sage Idealize.ShloMosaic
  Idealize.ShloMosaic.ValueIdx

/-- The array the aggregation accumulates into holds the real number zero everywhere. -/
theorem aggInit_isReal (i : S50000x128.Idx) : IsReal (val_main_v11 (F := Ideal) i) := by
  rw [val_main_v11_apply, val_main_cst_apply, Ideal.ofBits_def, Ideal.ofBits_zero_f32]
  exact isReal_zero

/-- The rows gathered from real node features are real. -/
theorem aggUpd_isReal (x0 : (⟨S50000x128, .f32⟩ : BufTy).Contents (Elt Ideal))
    (x1 : (⟨S2x800000, .i32⟩ : BufTy).Contents (Elt Ideal)) (hx0 : ∀ i, IsReal (x0 i)) :
    ∀ j, IsReal (val_main_v10 (F := Ideal) x0 x1 j) := by
  unfold val_main_v10
  exact gather_isReal _ x0 _ hx0

/-- The aggregated features are real when the node features are. -/
theorem agg_isReal (x0 : (⟨S50000x128, .f32⟩ : BufTy).Contents (Elt Ideal))
    (x1 : (⟨S2x800000, .i32⟩ : BufTy).Contents (Elt Ideal)) (hx0 : ∀ i, Cert.Sage.IsReal (x0 i)) :
    ∀ i, Cert.Sage.IsReal (val_main_v13 (F := Ideal) x0 x1 i) := by
  unfold val_main_v13
  exact scatterAdd_isReal _ _ _ _ aggInit_isReal (aggUpd_isReal x0 x1 hx0)

end Cert.ReferenceIdeal.RefValue

end
-- ==== Proof.Stats.lean ====
/-
  The column statistics of the normalisation, taken two ways, agree on real (finite) activations.

  All arithmetic is carried out over the reals and only then read in the extended reals: a finite sum of real
  numbers read in the extended reals is the real sum, a quotient by a non-zero real constant is the real quotient,
  and a difference or product of two reals is the real difference or product. With that, both arrangements of the
  statistics are expressions in the real column sum `S` and the real column sum of squares `Q`:
  the mean is `S / 50000` either way, and the mean squared deviation is `Q / 50000 - (S / 50000)^2`, which is
  non-negative, so the clip at zero does nothing.
-/
import proofs.«124991_j24120536334768_2_alg».proof.Proof.Spec

noncomputable section

namespace Cert.Sage

open Idealize.ShloMosaic Idealize.ShloMosaic.ValueIdx
open scoped BigOperators

/-! ### The two float constants -/

/-- The pattern `0x47435000` denotes the real number 50000. -/
theorem cnt_eq : cnt = ((50000 : ℝ) : EReal) := by
  simp [cnt, Ideal.ofBits, Ideal.ieee, -EReal.coe_mul]; norm_num

/-- The pattern `0x41000000` denotes the real number 8. -/
theorem eight_eq : eight = ((8 : ℝ) : EReal) := by
  simp [eight, Ideal.ofBits, Ideal.ieee, -EReal.coe_mul]; norm_num

/-! ### Sums of reals read in the extended reals -/

/-- A finite sum of real numbers, read in the extended reals, is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ### The two re-indexings -/

/-- Nodes are pairs (tile, position in the tile): `n ↦ (n / 5000, n % 5000)` inverts `tileRow`. -/
def tileEquiv : Fin 10 × Fin 5000 ≃ Fin 50000 where
  toFun p := tileRow p.1 p.2
  invFun n := (⟨n.val / 5000, by have := n.isLt; omega⟩, ⟨n.val % 5000, by omega⟩)
  left_inv := by
    rintro ⟨⟨t, ht⟩, ⟨j, hj⟩⟩
    simp only [tileRow, Prod.mk.injEq, Fin.mk.injEq]
    constructor <;> omega
  right_inv := by
    rintro ⟨n, hn⟩
    simp only [tileRow, Fin.mk.injEq]
    omega

/-- Summing tile by tile is summing over all nodes. -/
theorem sum_tileRow {M : Type*} [AddCommMonoid M] (f : Fin 50000 → M) :
    ∑ t : Fin 10, ∑ j : Fin 5000, f (tileRow t j) = ∑ n : Fin 50000, f n :=
  (Fintype.sum_prod_type' (fun t j => f (tileRow t j))).symm.trans
    (Fintype.sum_equiv tileEquiv _ _ (fun _ => rfl))

/-- Rows of the table are pairs (tile, copy): `r ↦ (r / 8, r % 8)`. -/
def rowEquiv : Fin 10 × Fin 8 ≃ Fin 80 where
  toFun p := ⟨8 * p.1.val + p.2.val, by have := p.1.isLt; have := p.2.isLt; omega⟩
  invFun r := (⟨r.val / 8, by have := r.isLt; omega⟩, ⟨r.val % 8, by omega⟩)
  left_inv := by
    rintro ⟨⟨t, ht⟩, ⟨u, hu⟩⟩
    simp only [Prod.mk.injEq, Fin.mk.injEq]
    constructor <;> omega
  right_inv := by
    rintro ⟨r, hr⟩
    simp only [Fin.mk.injEq]
    omega

/-- A table whose row `r` holds the entry of tile `r / 8` sums to eight times the sum over the tiles. -/
theorem sum_rows (g : Fin 10 → ℝ) :
    ∑ r : Fin 80, g ⟨r.val / 8, by have := r.isLt; omega⟩ = 8 * ∑ t : Fin 10, g t := by
  have h : ∀ p : Fin 10 × Fin 8,
      g p.1 = (fun r : Fin 80 => g ⟨r.val / 8, by have := r.isLt; omega⟩) (rowEquiv p) := by
    rintro ⟨⟨t, ht⟩, ⟨u, hu⟩⟩
    show g _ = g _
    congr 1
    simp only [rowEquiv, Equiv.coe_fn_mk, Fin.mk.injEq]
    omega
  rw [← Fintype.sum_equiv rowEquiv _ _ h, Fintype.sum_prod_type]
  simp [Finset.sum_const, Finset.mul_sum]

/-! ### The table of partial sums -/

/-- A row of the table of a real column is the real sum over its tile. -/
theorem part_coe (f : Fin 50000 → ℝ) (r : Fin 80) :
    part (fun n => ((f n : ℝ) : EReal)) r
      = ((∑ j : Fin 5000, f (tileRow ⟨r.val / 8, by have := r.isLt; omega⟩ j) : ℝ) : EReal) := by
  unfold part
  exact coe_sum _ _

/-- The 80 rows of the table of a real column add up to eight times the column sum. -/
theorem table_sum (f : Fin 50000 → ℝ) :
    (0 + ∑ r : Fin 80, part (fun n => ((f n : ℝ) : EReal)) r) = ((8 * ∑ n : Fin 50000, f n : ℝ) : EReal) := by
  simp only [part_coe]
  rw [coe_sum, zero_add, sum_rows (fun t => ∑ j : Fin 5000, f (tileRow t j)), sum_tileRow]

/-- Dividing the table total by eight and by the node count gives the column sum over 50000. -/
theorem table_mean (f : Fin 50000 → ℝ) :
    Ideal.div (Ideal.div (0 + ∑ r : Fin 80, part (fun n => ((f n : ℝ) : EReal)) r) eight) cnt
      = (((∑ n : Fin 50000, f n) / 50000 : ℝ) : EReal) := by
  rw [table_sum, eight_eq, cnt_eq, Ideal.div_coe (by norm_num : (8 : ℝ) ≠ 0),
    Ideal.div_coe (by norm_num : (50000 : ℝ) ≠ 0), ← EReal.coe_mul, ← EReal.coe_mul]
  rw [EReal.coe_eq_coe_iff]
  ring

/-- The sum from zero of a real column over the node count is the column sum over 50000. -/
theorem plain_mean (f : Fin 50000 → ℝ) :
    Ideal.div (0 + ∑ n : Fin 50000, ((f n : ℝ) : EReal)) cnt = (((∑ n : Fin 50000, f n) / 50000 : ℝ) : EReal) := by
  rw [coe_sum, zero_add, cnt_eq, Ideal.div_coe (by norm_num : (50000 : ℝ) ≠ 0), ← EReal.coe_mul]
  rw [EReal.coe_eq_coe_iff]
  ring

/-! ### The variance identity over the reals -/

/-- The mean squared deviation from the mean is the mean square minus the squared mean. -/
theorem real_var (f : Fin 50000 → ℝ) :
    (∑ n : Fin 50000, (f n - (∑ m : Fin 50000, f m) / 50000) * (f n - (∑ m : Fin 50000, f m) / 50000)) / 50000
      = (∑ n : Fin 50000, f n * f n) / 50000
          - ((∑ m : Fin 50000, f m) / 50000) * ((∑ m : Fin 50000, f m) / 50000) := by
  generalize hS : (∑ m : Fin 50000, f m) = S
  have hexp : ∀ n, (f n - S / 50000) * (f n - S / 50000)
      = f n * f n - (2 * S / 50000) * f n + (S / 50000) * (S / 50000) := fun n => by ring
  simp only [hexp]
  rw [Finset.sum_add_distrib, Finset.sum_sub_distrib, ← Finset.mul_sum, hS, Finset.sum_const, Finset.card_univ,
    Fintype.card_fin, nsmul_eq_mul]
  push_cast
  ring

/-- The mean square minus the squared mean is non-negative: it is a mean of squares. -/
theorem real_var_nonneg (f : Fin 50000 → ℝ) :
    0 ≤ (∑ n : Fin 50000, f n * f n) / 50000
          - ((∑ m : Fin 50000, f m) / 50000) * ((∑ m : Fin 50000, f m) / 50000) := by
  rw [← real_var]
  exact div_nonneg (Finset.sum_nonneg (fun n _ => mul_self_nonneg _)) (by norm_num)

/-! ### The statistics of a real activation table -/

section
variable (hr : Fin 50000 → Fin 128 → ℝ) (o : Fin 128)

theorem mean_coe : mean (fun n o => ((hr n o : ℝ) : EReal)) o = (((∑ n : Fin 50000, hr n o) / 50000 : ℝ) : EReal) := by
  unfold mean
  exact plain_mean (fun n => hr n o)

theorem meanTiled_coe :
    meanTiled (fun n o => ((hr n o : ℝ) : EReal)) o = (((∑ n : Fin 50000, hr n o) / 50000 : ℝ) : EReal) := by
  unfold meanTiled
  exact table_mean (fun n => hr n o)

theorem meanSqTiled_coe :
    meanSqTiled (fun n o => ((hr n o : ℝ) : EReal)) o
      = (((∑ n : Fin 50000, hr n o * hr n o) / 50000 : ℝ) : EReal) := by
  unfold meanSqTiled
  simp only [← EReal.coe_mul]
  exact table_mean (fun n => hr n o * hr n o)

theorem var_coe :
    var (fun n o => ((hr n o : ℝ) : EReal)) o
      = (((∑ n : Fin 50000, hr n o * hr n o) / 50000
          - ((∑ m : Fin 50000, hr m o) / 50000) * ((∑ m : Fin 50000, hr m o) / 50000) : ℝ) : EReal) := by
  unfold var
  rw [mean_coe]
  simp only [← EReal.coe_sub, ← EReal.coe_mul]
  rw [plain_mean (fun n => (hr n o - (∑ m : Fin 50000, hr m o) / 50000) * (hr n o - (∑ m : Fin 50000, hr m o) / 50000)),
    real_var (fun n => hr n o)]

theorem clipped_coe :
    max (meanSqTiled (fun n o => ((hr n o : ℝ) : EReal)) o
          - meanTiled (fun n o => ((hr n o : ℝ) : EReal)) o * meanTiled (fun n o => ((hr n o : ℝ) : EReal)) o) 0
      = var (fun n o => ((hr n o : ℝ) : EReal)) o := by
  rw [meanSqTiled_coe, meanTiled_coe, var_coe, ← EReal.coe_mul, ← EReal.coe_sub]
  exact max_eq_left (EReal.coe_nonneg.mpr (real_var_nonneg (fun n => hr n o)))

end

/-! ### The two outputs agree -/

/-- On real (finite) activations the output built from the per-tile table is the two-pass output. -/
theorem outTiled_eq_outTwoPass (h : Fin 50000 → Fin 128 → EReal) (hfin : ∀ n o, ∃ r : ℝ, h n o = (r : EReal))
    (gamma beta : Arr1 128) (n : Fin 50000) (o : Fin 128) :
    outTiled h gamma beta n o = outTwoPass h gamma beta n o := by
  choose hr hh using hfin
  obtain rfl : h = fun n o => ((hr n o : ℝ) : EReal) := funext fun n => funext fun o => hh n o
  unfold outTiled outTwoPass invStdTiled
  rw [clipped_coe, meanTiled_coe, mean_coe]

end Cert.Sage

end
-- ==== Proof.Finite.lean ====
/-
  The inputs are real: the precondition read back.

  The precondition states, for each of the seven float arguments, that every entry has absolute value below plus
  infinity, and takes the conjunction. In the extended reals the bit pattern of plus infinity denotes the top element,
  and `max x (-x) < ⊤` excludes both infinities (at the bottom element `-x` is the top), so every entry is the image
  of a real number. The five arguments that enter the statistics are listed.
-/
import proofs.«124991_j24120536334768_2_alg».proof.Proof.FiniteMath
import proofs.«124991_j24120536334768_2_alg».proof.Defs
import Idealize.ShloMosaic.Lib.ReduceAll

noncomputable section

namespace Cert.Sage

open Idealize.ShloMosaic Idealize.ShloMosaic.ValueIdx Idealize.SL.Sem
open Cert.Pre_finite_inputs (S_ S50000x128 S2x800000 S128x128 S128)

/-- The rank-0 shape has one index. -/
local instance scalarIdx_subsingleton : Subsingleton S_.Idx := ⟨fun a b => funext fun d => d.elim0⟩

/-- The bit pattern of plus infinity denotes the top element. -/
theorem ofBits_inf : Ideal.ofBits .f32 0x7F800000#32 = (⊤ : EReal) := by
  simp [Ideal.ofBits, Ideal.ieee]

/-- An extended real whose absolute value is below plus infinity is real. -/
theorem isReal_of_abs_lt (x : EReal)
    (h : Ideal.cmp .olt (max x (-x)) (Ideal.ofBits .f32 0x7F800000#32) = 1#1) : IsReal x := by
  rw [ofBits_inf] at h
  unfold Ideal.cmp at h
  induction x using EReal.rec with
  | bot => simp at h
  | coe r => exact ⟨r, rfl⟩
  | top => simp at h

/-- One conjunct of the precondition: if all entries of an array compare below plus infinity in absolute value, all
    entries are real. -/
theorem all_real {s : Shape} {axes : List (Fin s.rank)} (hb : S_.BroadcastsInDim s (![] : Fin 0 → Fin s.rank))
    (hr : s.ReducesTo axes S_) (h0 : 0 < S_.numel) (x : FVec Ideal s .f32) (j : S_.Idx)
    (e : Host.reduce IntOp.andi
          (cmpf .olt (Host.absf x) (broadcastInDim s ![] hb (constant (F := Ideal) S_ .f32 0x7F800000#32)))
          (constantI S_ 1 1#1) hr h0 j = 1#1) :
    ∀ i, IsReal (x i) := fun i =>
  isReal_of_abs_lt (x i) (Host.reduce_andi_all _ _ hr h0 j e i)

/-- The precondition function at arbitrary arguments: when it answers true, every entry of the five arrays that enter
    the statistics is real. -/
theorem fn_real [hF : Cert.Pre_finite_inputs.Facts] (a0 : FVec Ideal S50000x128 .f32) (a1 : IVec S2x800000 32)
    (a2 : FVec Ideal S128x128 .f32) (a3 : FVec Ideal S128 .f32) (a4 : FVec Ideal S128x128 .f32)
    (a5 a6 a7 : FVec Ideal S128 .f32)
    (h : Cert.Pre_finite_inputs.fn (F := Ideal) a0 a1 a2 a3 a4 a5 a6 a7 = fun _ => 1#1) :
    (∀ i, IsReal (a0 i)) ∧ (∀ i, IsReal (a2 i)) ∧ (∀ i, IsReal (a3 i)) ∧ (∀ i, IsReal (a4 i)) ∧ (∀ i, IsReal (a5 i)) := by
  have e := congrFun h ix0
  unfold Cert.Pre_finite_inputs.fn Cert.Pre_finite_inputs.fn_part1 at e
  dsimp only at e
  obtain ⟨e, -⟩ := IntOp.andi_eq_one.1 e
  obtain ⟨e, -⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h0, h2⟩ := IntOp.andi_eq_one.1 e
  exact ⟨all_real _ _ _ a0 _ h0, all_real _ _ _ a2 _ h2, all_real _ _ _ a3 _ h3, all_real _ _ _ a4 _ h4,
    all_real _ _ _ a5 _ h5⟩

/-- Under the precondition of the idealized kernel, on every device the five input arrays that enter the statistics
    hold real numbers only. -/
theorem args_real [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i)) :=
  fn_real _ _ _ _ _ _ _ _ (hpre c)

end Cert.Sage

end
-- ==== Proof.lean ====
/-
  The certificate: a graph layer computed by two kernel launches equals its plain reference over the extended reals.

  Both programs aggregate each node's neighbour features by the same gather and scatter-add, apply two linear maps with
  biases, rectify, and normalise every feature column over the 50000 nodes. They differ in how the column statistics
  are formed. The reference takes the column mean and then the mean squared deviation from it. The kernel program has
  its first launch emit, per tile of 5000 nodes, the column sums and the column sums of squares (each tile's pair kept
  in eight identical rows), has the host add the 80 rows, divide by eight and by the node count, and take the mean
  square minus the squared mean clipped at zero; its second launch normalises. On real numbers the two variances are one
  number, a sum of squares over a positive count, so the clip does nothing; on the extended reals that identity needs
  every activation to be real, which the precondition gives: finite inputs make the aggregated features, and so the
  activations, real.

  The three frames are the generated frame of each kernel program and the reference's generated run with its result
  dropped; the idealization rewrote nothing, so its claim is trivial.
-/
import proofs.«124991_j24120536334768_2_alg».proof.Defs
import proofs.«124991_j24120536334768_2_alg».proof.Proof.Gen.Kernel
import proofs.«124991_j24120536334768_2_alg».proof.Proof.Gen.Kernel.Skeleton
import proofs.«124991_j24120536334768_2_alg».proof.Proof.Gen.Kernel.Launch
import proofs.«124991_j24120536334768_2_alg».proof.Proof.Gen.Kernel.Points
import proofs.«124991_j24120536334768_2_alg».proof.Proof.Gen.Kernel.Frame
import proofs.«124991_j24120536334768_2_alg».proof.Proof.Gen.KernelIdeal
import proofs.«124991_j24120536334768_2_alg».proof.Proof.Gen.KernelIdeal.Skeleton
import proofs.«124991_j24120536334768_2_alg».proof.Proof.Gen.KernelIdeal.Launch
import proofs.«124991_j24120536334768_2_alg».proof.Proof.Gen.KernelIdeal.Points
import proofs.«124991_j24120536334768_2_alg».proof.Proof.Gen.KernelIdeal.Frame
import proofs.«124991_j24120536334768_2_alg».proof.Proof.Gen.ReferenceIdeal
import proofs.«124991_j24120536334768_2_alg».proof.Proof.Gen.Pre_finite_inputs
import proofs.«124991_j24120536334768_2_alg».proof.Proof.Gen.ReferenceIdeal.Run
import proofs.«124991_j24120536334768_2_alg».proof.Proof.Gen.ReferenceIdeal.Read
import proofs.«124991_j24120536334768_2_alg».proof.Proof.KValue
import proofs.«124991_j24120536334768_2_alg».proof.Proof.KAgg
import proofs.«124991_j24120536334768_2_alg».proof.Proof.RValue
import proofs.«124991_j24120536334768_2_alg».proof.Proof.AggReal
import proofs.«124991_j24120536334768_2_alg».proof.Proof.Stats
import proofs.«124991_j24120536334768_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- Entry `(n, o)` of the reference's result and of the kernel program's result, from the same launch arrays under the
    precondition: the two-pass and the tiled normalisation of one array of real activations. -/
theorem results_agree (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD)
    (n : Fin 50000) (o : Fin 128) :
    Cert.ReferenceIdeal.Read.val_main_v48 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) (ix2 n o)
      = Cert.KernelIdeal.Gen.W4 m ρ c (Proc.devRef .tc Cert.KernelIdeal.main_v42) (ix2 n o) := by
  obtain ⟨h0, h2, h3, h4, h5⟩ := Cert.Sage.args_real m hpre c
  rw [Cert.ReferenceIdeal.RefValue.result_eq, Cert.KernelIdeal.ValueK.result_apply, Cert.KernelIdeal.AggV.V1_agg]
  exact (Cert.Sage.outTiled_eq_outTwoPass _
    (Cert.Sage.hidden_isReal _ _ _ _ _ _ (Cert.ReferenceIdeal.RefValue.agg_isReal _ _ h0) h0 h2 h3 h4 h5) _ _ n o).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs run, and their results are equal entry by entry. -/
theorem algebraic : Cert.algebraic_KernelIdeal_ReferenceIdeal := by
  intro m ρ m' ρ' hpre hagree
  refine ⟨fun c => Cert.KernelIdeal.Gen.W4 m ρ c (Proc.devRef .tc Cert.KernelIdeal.main_v42),
    Cert.KernelIdeal.RunV.run_named m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v48_eq, e0, e1, e2, e3, e4, e5, e6, e7]
  funext i
  rw [eq_ix2 i]
  exact results_agree m ρ hpre c (i 0) (i 1)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
